-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16x128 : Shape := ⟨2, ![16, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S4096x128 .f32) (main_arg1 : FVec F S16x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  main_v8
-- ==== Kernel.lean ====
abbrev S4096x128 : Shape := ⟨2, ![4096, 128]⟩
abbrev S16x128 : Shape := ⟨2, ![16, 128]⟩
abbrev S4096x4096 : Shape := ⟨2, ![4096, 4096]⟩
abbrev S1024x128 : Shape := ⟨2, ![1024, 128]⟩
abbrev S1024x1024 : Shape := ⟨2, ![1024, 1024]⟩
abbrev S1024x2048 : Shape := ⟨2, ![1024, 2048]⟩
abbrev S1x128 : Shape := ⟨2, ![1, 128]⟩
abbrev S128 : Shape := ⟨1, ![128]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 3
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S16x128, .f32⟩
  | .hbm, ⟨2, _⟩ => ⟨S4096x4096, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S16x128, .f32⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  inb_S16x128_S1x128_0_0 : ∀ a, (![0, 0] : Fin 2 → Nat) a + S1x128.size a ≤ S16x128.size a
  h_S1x128 : 0 < S1x128.numel
  shapeCasts_S1x128_S128 : S1x128.ShapeCasts S128
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  inb_S1024x2048_S1024x128_0_0 : ∀ a, (![0, 0] : Fin 2 → Nat) a + S1024x128.size a ≤ S1024x2048.size a
  shapeCasts_S1024x128_S1024x128 : S1024x128.ShapeCasts S1024x128
  packedbf16_S1024x2048_S1024x128_0_0 : (Rect.unit (s := S1024x2048) ![0, 0] S1024x128.size inb_S1024x2048_S1024x128_0_0).PackedRows (EltTy.packing .bf16)
  inb_S16x128_S1x128_1_0 : ∀ a, (![1, 0] : Fin 2 → Nat) a + S1x128.size a ≤ S16x128.size a
  inb_S1024x2048_S1024x128_0_128 : ∀ a, (![0, 128] : Fin 2 → Nat) a + S1024x128.size a ≤ S1024x2048.size a
  packedbf16_S1024x2048_S1024x128_0_128 : (Rect.unit (s := S1024x2048) ![0, 128] S1024x128.size inb_S1024x2048_S1024x128_0_128).PackedRows (EltTy.packing .bf16)
  inb_S16x128_S1x128_2_0 : ∀ a, (![2, 0] : Fin 2 → Nat) a + S1x128.size a ≤ S16x128.size a
  inb_S1024x2048_S1024x128_0_256 : ∀ a, (![0, 256] : Fin 2 → Nat) a + S1024x128.size a ≤ S1024x2048.size a
  packedbf16_S1024x2048_S1024x128_0_256 : (Rect.unit (s := S1024x2048) ![0, 256] S1024x128.size inb_S1024x2048_S1024x128_0_256).PackedRows (EltTy.packing .bf16)
  inb_S16x128_S1x128_3_0 : ∀ a, (![3, 0] : Fin 2 → Nat) a + S1x128.size a ≤ S16x128.size a
  inb_S1024x2048_S1024x128_0_384 : ∀ a, (![0, 384] : Fin 2 → Nat) a + S1024x128.size a ≤ S1024x2048.size a
  packedbf16_S1024x2048_S1024x128_0_384 : (Rect.unit (s := S1024x2048) ![0, 384] S1024x128.size inb_S1024x2048_S1024x128_0_384).PackedRows (EltTy.packing .bf16)
  inb_S16x128_S1x128_4_0 : ∀ a, (![4, 0] : Fin 2 → Nat) a + S1x128.size a ≤ S16x128.size a
  inb_S1024x2048_S1024x128_0_512 : ∀ a, (![0, 512] : Fin 2 → Nat) a + S1024x128.size a ≤ S1024x2048.size a
  packedbf16_S1024x2048_S1024x128_0_512 : (Rect.unit (s := S1024x2048) ![0, 512] S1024x128.size inb_S1024x2048_S1024x128_0_512).PackedRows (EltTy.packing .bf16)
  inb_S16x128_S1x128_5_0 : ∀ a, (![5, 0] : Fin 2 → Nat) a + S1x128.size a ≤ S16x128.size a
  inb_S1024x2048_S1024x128_0_640 : ∀ a, (![0, 640] : Fin 2 → Nat) a + S1024x128.size a ≤ S1024x2048.size a
  packedbf16_S1024x2048_S1024x128_0_640 : (Rect.unit (s := S1024x2048) ![0, 640] S1024x128.size inb_S1024x2048_S1024x128_0_640).PackedRows (EltTy.packing .bf16)
  inb_S16x128_S1x128_6_0 : ∀ a, (![6, 0] : Fin 2 → Nat) a + S1x128.size a ≤ S16x128.size a
  inb_S1024x2048_S1024x128_0_768 : ∀ a, (![0, 768] : Fin 2 → Nat) a + S1024x128.size a ≤ S1024x2048.size a
  packedbf16_S1024x2048_S1024x128_0_768 : (Rect.unit (s := S1024x2048) ![0, 768] S1024x128.size inb_S1024x2048_S1024x128_0_768).PackedRows (EltTy.packing .bf16)
  inb_S16x128_S1x128_7_0 : ∀ a, (![7, 0] : Fin 2 → Nat) a + S1x128.size a ≤ S16x128.size a
  inb_S1024x2048_S1024x128_0_896 : ∀ a, (![0, 896] : Fin 2 → Nat) a + S1024x128.size a ≤ S1024x2048.size a
  packedbf16_S1024x2048_S1024x128_0_896 : (Rect.unit (s := S1024x2048) ![0, 896] S1024x128.size inb_S1024x2048_S1024x128_0_896).PackedRows (EltTy.packing .bf16)
  inb_S16x128_S1x128_8_0 : ∀ a, (![8, 0] : Fin 2 → Nat) a + S1x128.size a ≤ S16x128.size a
  inb_S1024x2048_S1024x128_0_1024 : ∀ a, (![0, 1024] : Fin 2 → Nat) a + S1024x128.size a ≤ S1024x2048.size a
  packedbf16_S1024x2048_S1024x128_0_1024 : (Rect.unit (s := S1024x2048) ![0, 1024] S1024x128.size inb_S1024x2048_S1024x128_0_1024).PackedRows (EltTy.packing .bf16)
  inb_S16x128_S1x128_9_0 : ∀ a, (![9, 0] : Fin 2 → Nat) a + S1x128.size a ≤ S16x128.size a
  inb_S1024x2048_S1024x128_0_1152 : ∀ a, (![0, 1152] : Fin 2 → Nat) a + S1024x128.size a ≤ S1024x2048.size a
  packedbf16_S1024x2048_S1024x128_0_1152 : (Rect.unit (s := S1024x2048) ![0, 1152] S1024x128.size inb_S1024x2048_S1024x128_0_1152).PackedRows (EltTy.packing .bf16)
  inb_S16x128_S1x128_10_0 : ∀ a, (![10, 0] : Fin 2 → Nat) a + S1x128.size a ≤ S16x128.size a
  inb_S1024x2048_S1024x128_0_1280 : ∀ a, (![0, 1280] : Fin 2 → Nat) a + S1024x128.size a ≤ S1024x2048.size a
  packedbf16_S1024x2048_S1024x128_0_1280 : (Rect.unit (s := S1024x2048) ![0, 1280] S1024x128.size inb_S1024x2048_S1024x128_0_1280).PackedRows (EltTy.packing .bf16)
  inb_S16x128_S1x128_11_0 : ∀ a, (![11, 0] : Fin 2 → Nat) a + S1x128.size a ≤ S16x128.size a
  inb_S1024x2048_S1024x128_0_1408 : ∀ a, (![0, 1408] : Fin 2 → Nat) a + S1024x128.size a ≤ S1024x2048.size a
  packedbf16_S1024x2048_S1024x128_0_1408 : (Rect.unit (s := S1024x2048) ![0, 1408] S1024x128.size inb_S1024x2048_S1024x128_0_1408).PackedRows (EltTy.packing .bf16)
  inb_S16x128_S1x128_12_0 : ∀ a, (![12, 0] : Fin 2 → Nat) a + S1x128.size a ≤ S16x128.size a
  inb_S1024x2048_S1024x128_0_1536 : ∀ a, (![0, 1536] : Fin 2 → Nat) a + S1024x128.size a ≤ S1024x2048.size a
  packedbf16_S1024x2048_S1024x128_0_1536 : (Rect.unit (s := S1024x2048) ![0, 1536] S1024x128.size inb_S1024x2048_S1024x128_0_1536).PackedRows (EltTy.packing .bf16)
  inb_S16x128_S1x128_13_0 : ∀ a, (![13, 0] : Fin 2 → Nat) a + S1x128.size a ≤ S16x128.size a
  inb_S1024x2048_S1024x128_0_1664 : ∀ a, (![0, 1664] : Fin 2 → Nat) a + S1024x128.size a ≤ S1024x2048.size a
  packedbf16_S1024x2048_S1024x128_0_1664 : (Rect.unit (s := S1024x2048) ![0, 1664] S1024x128.size inb_S1024x2048_S1024x128_0_1664).PackedRows (EltTy.packing .bf16)
  inb_S16x128_S1x128_14_0 : ∀ a, (![14, 0] : Fin 2 → Nat) a + S1x128.size a ≤ S16x128.size a
  inb_S1024x2048_S1024x128_0_1792 : ∀ a, (![0, 1792] : Fin 2 → Nat) a + S1024x128.size a ≤ S1024x2048.size a
  packedbf16_S1024x2048_S1024x128_0_1792 : (Rect.unit (s := S1024x2048) ![0, 1792] S1024x128.size inb_S1024x2048_S1024x128_0_1792).PackedRows (EltTy.packing .bf16)
  inb_S16x128_S1x128_15_0 : ∀ a, (![15, 0] : Fin 2 → Nat) a + S1x128.size a ≤ S16x128.size a
  inb_S1024x2048_S1024x128_0_1920 : ∀ a, (![0, 1920] : Fin 2 → Nat) a + S1024x128.size a ≤ S1024x2048.size a
  packedbf16_S1024x2048_S1024x128_0_1920 : (Rect.unit (s := S1024x2048) ![0, 1920] S1024x128.size inb_S1024x2048_S1024x128_0_1920).PackedRows (EltTy.packing .bf16)
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  natLt_1_32 : 1 < 32
  inb_S1024x1024_S1024x1024_0_0 : ∀ a, (![0, 0] : Fin 2 → Nat) a + S1024x1024.size a ≤ S1024x1024.size a
  h_S1024x1024 : 0 < S1024x1024.numel
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S16x128 : Shape := ⟨2, ![16, 128]⟩
abbrev S1x4096x128 : Shape := ⟨3, ![1, 4096, 128]⟩
abbrev S16x1x128 : Shape := ⟨3, ![16, 1, 128]⟩
abbrev S16x4096x128 : Shape := ⟨3, ![16, 4096, 128]⟩
abbrev S_ : Shape := ⟨0, ![]⟩
abbrev S16x4096 : Shape := ⟨2, ![16, 4096]⟩
abbrev S16x4096x1 : Shape := ⟨3, ![16, 4096, 1]⟩
abbrev S16x4096x4096 : Shape := ⟨3, ![16, 4096, 4096]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16x128, .f32⟩
  | .hbm, ⟨2, _⟩ => ⟨S1x4096x128, .f32⟩
  | .hbm, ⟨3, _⟩ => ⟨S16x1x128, .f32⟩
  | .hbm, ⟨4, _⟩ => ⟨S16x4096x128, .f32⟩
  | .hbm, ⟨5, _⟩ => ⟨S16x4096x128, .f32⟩
  | .hbm, ⟨6, _⟩ => ⟨S16x4096x128, .f32⟩
  | .hbm, ⟨7, _⟩ => ⟨S16x4096x128, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x128, .f32⟩
  | .hbm, ⟨16, _⟩ => ⟨S16x4096x128, .f32⟩
  | .hbm, ⟨17, _⟩ => ⟨S16x4096x4096, .f32⟩
  | .hbm, ⟨18, _⟩ => ⟨S_, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .i1⟩
  | .hbm, ⟨26, _⟩ => ⟨S4096x4096, .f32⟩
  | .hbm, ⟨27, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S4096x128_S1x4096x128_1_2 : S4096x128.BroadcastsInDim S1x4096x128 (![1, 2] : Fin 2 → Fin S1x4096x128.rank)
  bcast_S16x128_S16x1x128_0_2 : S16x128.BroadcastsInDim S16x1x128 (![0, 2] : Fin 2 → Fin S16x1x128.rank)
  bcast_S1x4096x128_S16x4096x128_0_1_2 : S1x4096x128.BroadcastsInDim S16x4096x128 (![0, 1, 2] : Fin 3 → Fin S16x4096x128.rank)
  bcast_S16x1x128_S16x4096x128_0_1_2 : S16x1x128.BroadcastsInDim S16x4096x128 (![0, 1, 2] : Fin 3 → Fin S16x4096x128.rank)
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  reducesTo_S16x4096x4096_S4096x4096_d0 : S16x4096x4096.ReducesTo [0] S4096x4096
  bcast_S_S4096x4096 : S_.BroadcastsInDim S4096x4096 (![] : Fin 0 → Fin S4096x4096.rank)
  dot_S16x4096x128_S16x4096x128_S16x4096x4096_2_2_1_1_0_0_wf : DotDims.WF S16x4096x128 S16x4096x128 S16x4096x4096 [2] [2] [1] [1] [0] [0]

variable [Facts₀]

def dot_S16x4096x128_S16x4096x128_S16x4096x4096_2_2_1_1_0_0 : DotDims S16x4096x128 S16x4096x128 S16x4096x4096 where
  lhsContracting := [2]
  rhsContracting := [2]
  lhsNonContracting := [1]
  rhsNonContracting := [1]
  lhsBatch := [0]
  rhsBatch := [0]
  wf := dot_S16x4096x128_S16x4096x128_S16x4096x4096_2_2_1_1_0_0_wf

class Facts : Prop extends Facts₀ where

variable [Facts]
-- ==== Proof.BitsCommon.lean ====
/-
  What the two runs of the tile body, the proof data and the launch share: the region's entry contents, the windows'
  blocks, the body's one branch (is this the first tile of its row of tiles?) decided over the grid, and the staging
  and scratch buffers by name.

  The grid is 4 x 4 tiles of 1024 x 1024, visited row by row. At the first tile of a row the body normalises the row
  block's 16 weighted copies into the row scratch; at every tile it does the same for the column block into the column
  scratch, multiplies the two scratches (one against the other's transpose), scales by 1/16 and masks. The row scratch
  is carried from the first tile of a row to the three tiles after it.
-/
import proofs.«167289_j14869176779021_2_alg».proof.Proof.Gen.Kernel.Launch
import proofs.«167289_j14869176779021_2_alg».proof.Proof.Gen.Kernel.Skeleton
import proofs.«167289_j14869176779021_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- A core's buffers when the region is entered: as launched (the program is the region alone). -/
abbrev V (c : Dev nD) (b : Ref sig .tc) : Buf (Elt F) ((c : Thread nD τ).loc b) := m ((c : Thread nD τ).loc b)

/-- The program up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The body's one branch: the second grid coordinate is zero — the tile is the first of its row of tiles. -/
abbrev condFirst (i : grid0.Coords) : Prop := (Scalar.cmpi .ne (Scalar.extui (Scalar.cmpi .eq (BitVec.ofNat 32 (i 1).val) 0#32)) 0#32) = 1#1
/-- Over the grid: the points that are multiples of 4. -/
theorem condFirst_iff : ∀ t : Fin cfg0.N, condFirst (grid0.coords t) ↔ t.val % 4 = 0 :=
  (by decide +kernel : ∀ t : Fin grid0.N, condFirst (grid0.coords t) ↔ t.val % 4 = 0)

/-! ## The buffers by name -/

/-- Each window's current staging buffer at point `t`, as the pipeline passes it to the body, and its wholeness. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The row scratch (carried along a row of tiles) and the column scratch (rebuilt at every tile). -/
abbrev rowM : Memref sig .tc .vmem S1024x2048 .bf16 := Memref.whole cc0_scratch0
abbrev colM : Memref sig .tc .vmem S1024x2048 .bf16 := Memref.whole cc0_scratch1
/-- The views through which the output tile's and the row scratch's contents are stated. -/
abbrev VO : View sig .tc .vmem S1024x1024 .f32 := (Memref.whole cc0_stg3_0 : Memref sig .tc .vmem S1024x1024 .f32).view
abbrev VR : View sig .tc .vmem S1024x2048 .bf16 := rowM.view

/-- The scoped buffers the pipeline does not stage are the two scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) rowM fullShare d) ∗ (∃ d, owns (c : Thread nD τ) colM fullShare d)) := by
  rw [scopedRest0_eq]; simp only [rowM, colM, owns_whole]; try rfl

end Cert.Kernel.Tile

end
-- ==== Proof.BitsRunFirst.lean ====
/-
  The tile body run once at symbolic operands, in the case of the first tile of a row: both scratch buffers are rebuilt.
  The lists of pieces each written buffer ends with are the witnesses the symbolic run finds.
-/
import proofs.«167289_j14869176779021_2_alg».proof.Proof.BitsCommon

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first tile of a row: from the three input buffers at their blocks and the output and both scratch buffers at
    anything, the body runs to its return with the inputs as they were and the output tile, the row scratch and the column
    scratch each with its pieces written. -/
noncomputable def runFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) :
    Σ' (L5 : List (View.Piece (Elt F) S1024x1024 .f32)) (L6 : List (View.Piece (Elt F) S1024x2048 .bf16)), { L7 : List (View.Piece (Elt F) S1024x2048 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, ?_, fun E K => ?run⟩
  case run =>
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf2; obtain rfl := harg3.eq_unread hf3; obtain rfl := harg4.eq_unread hf4
    sl_exec_parts (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.Kernel.Tile

end
-- ==== Proof.BitsRunLater.lean ====
/-
  The tile body run once at symbolic operands, in the case of a tile that is not the first of its row: the row scratch is read as the row's first tile left it.
  The lists of pieces each written buffer ends with are the witnesses the symbolic run finds.
-/
import proofs.«167289_j14869176779021_2_alg».proof.Proof.BitsCommon

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later tile of a row: from the column block's and the weights' buffers at their contents, the row scratch at what
    the row's first tile left in it, and the row block's buffer, the output and the column scratch at anything, the body
    runs to its return with the inputs and the row scratch as they were and the output tile and the column scratch each
    with its pieces written. -/
noncomputable def runLater (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : ¬condFirst i)
    (x3 : Vec F S1024x128 .f32) (x4 : Vec F S16x128 .f32) (xs6 : Vec F S1024x2048 .bf16) :
    Σ' (L5 : List (View.Piece (Elt F) S1024x1024 .f32)), { L7 : List (View.Piece (Elt F) S1024x2048 .bf16) //
      ∀ (x2 : Vec F S1024x128 .f32) (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare xs6 ∗ (∃ d, owns (c : Thread nD τ) arg7 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ owns (c : Thread nD τ) arg6 fullShare xs6
                ∗ (∃ f, arg7.view.loc (c : Thread nD τ) ↦[arg7.view.set]{fullShare} arg7.view.writes (Elt F) f L7)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun x2 E K => ?run⟩
  case run =>
    unfold owns
    iintro ⟨⟨%f2, %hf2, H2⟩, ⟨%f3, %hf3, H3⟩, ⟨%f4, %hf4, H4⟩, ⟨%d5, %f5, -, H5⟩, ⟨%f6, %hf6, H6⟩, ⟨%d7, %f7, -, H7⟩, Hk⟩
    obtain rfl := harg2.eq_unread hf2; obtain rfl := harg3.eq_unread hf3; obtain rfl := harg4.eq_unread hf4; obtain rfl := harg6.eq_unread hf6
    sl_exec_parts (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; iexact H7

end Cert.Kernel.Tile

end
-- ==== Proof.BitsData.lean ====
/-
  The proof data of the tile pipeline and its body obligation.

  After the body at a point the output staging buffer holds the masked product tile and the row scratch holds the
  normalised row block — built at the first tile of a row, kept at the three tiles after it. Both are given by
  recursion on the point: a later tile's product reads the row scratch the point before left.
-/
import proofs.«167289_j14869176779021_2_alg».proof.Proof.BitsRunFirst
import proofs.«167289_j14869176779021_2_alg».proof.Proof.BitsRunLater
import Idealize.ShloMosaic.Lib.Pipeline.Frame

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first tile of a row the output's pieces tile its block, -/
theorem coverFirstTile (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) (y : S1024x1024.Idx) :
    ∃ pc ∈ (runFirst c i arg2 harg2 arg3 harg3 arg4 harg4 arg5 harg5 arg6 harg6 arg7 harg7 hc x2 x3 x4).1, y ∈ pc.1.set :=
  View.cover_of_tiledL (runFirst c i arg2 harg2 arg3 harg3 arg4 harg4 arg5 harg5 arg6 harg6 arg7 harg7 hc x2 x3 x4).1 S1024x1024.size (by sl_kernel_rfl) y

/-- and the row scratch's sixteen column slices tile it. -/
theorem coverFirstRow (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) (y : S1024x2048.Idx) :
    ∃ pc ∈ (runFirst c i arg2 harg2 arg3 harg3 arg4 harg4 arg5 harg5 arg6 harg6 arg7 harg7 hc x2 x3 x4).2.1, y ∈ pc.1.set :=
  View.cover_of_tiledL (runFirst c i arg2 harg2 arg3 harg3 arg4 harg4 arg5 harg5 arg6 harg6 arg7 harg7 hc x2 x3 x4).2.1 S1024x128.size (by sl_kernel_rfl) y

/-- At a later tile the output's pieces tile its block. -/
theorem coverLaterTile (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : ¬condFirst i)
    (x3 : Vec F S1024x128 .f32) (x4 : Vec F S16x128 .f32) (xs6 : Vec F S1024x2048 .bf16) (y : S1024x1024.Idx) :
    ∃ pc ∈ (runLater c i arg2 harg2 arg3 harg3 arg4 harg4 arg5 harg5 arg6 harg6 arg7 harg7 hc x3 x4 xs6).1, y ∈ pc.1.set :=
  View.cover_of_tiledL (runLater c i arg2 harg2 arg3 harg3 arg4 harg4 arg5 harg5 arg6 harg6 arg7 harg7 hc x3 x4 xs6).1 S1024x1024.size (by sl_kernel_rfl) y

/-- The product tile the first tile of a row stores: its pieces read back. -/
def tileFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) : Vec F S1024x1024 .f32 :=
  VO.read (Elt F) (VO.writes (Elt F) VO.junk (runFirst c i arg2 harg2 arg3 harg3 arg4 harg4 arg5 harg5 arg6 harg6 arg7 harg7 hc x2 x3 x4).1)

/-- The row scratch the first tile of a row builds: its pieces read back. -/
def rowFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) : Vec F S1024x2048 .bf16 :=
  VR.read (Elt F) (VR.writes (Elt F) VR.junk (runFirst c i arg2 harg2 arg3 harg3 arg4 harg4 arg5 harg5 arg6 harg6 arg7 harg7 hc x2 x3 x4).2.1)

/-- The product tile a later tile stores, from the row scratch it finds: its pieces read back. -/
def tileLater (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : ¬condFirst i)
    (x3 : Vec F S1024x128 .f32) (x4 : Vec F S16x128 .f32) (xs6 : Vec F S1024x2048 .bf16) : Vec F S1024x1024 .f32 :=
  VO.read (Elt F) (VO.writes (Elt F) VO.junk (runLater c i arg2 harg2 arg3 harg3 arg4 harg4 arg5 harg5 arg6 harg6 arg7 harg7 hc x3 x4 xs6).1)

/-! ## After each point -/

/-- What the output staging buffer and the row scratch hold after the body at position `n`: at a multiple of 4 what the
    first-tile case builds from the point's blocks; otherwise the later-tile case's product over the row scratch the
    point before left, and that row scratch again. -/
def outsAt (c : Dev nD) : (n : ℕ) → n < cfg0.N → Vec F S1024x1024 .f32 × Vec F S1024x2048 .bf16
  | 0, hn =>
    (tileFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) rowM (Memref.isWhole_whole _) colM (Memref.isWhole_whole _) ((condFirst_iff ⟨0, hn⟩).mpr (Nat.zero_mod _)) (iblk m c 0 ⟨0, hn⟩) (iblk m c 1 ⟨0, hn⟩) (iblk m c 2 ⟨0, hn⟩),
     rowFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) rowM (Memref.isWhole_whole _) colM (Memref.isWhole_whole _) ((condFirst_iff ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (tileFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) rowM (Memref.isWhole_whole _) colM (Memref.isWhole_whole _) ((condFirst_iff ⟨n + 1, hn⟩).mpr h0) (iblk m c 0 ⟨n + 1, hn⟩) (iblk m c 1 ⟨n + 1, hn⟩) (iblk m c 2 ⟨n + 1, hn⟩),
       rowFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) rowM (Memref.isWhole_whole _) colM (Memref.isWhole_whole _) ((condFirst_iff ⟨n + 1, hn⟩).mpr h0) (iblk m c 0 ⟨n + 1, hn⟩) (iblk m c 1 ⟨n + 1, hn⟩) (iblk m c 2 ⟨n + 1, hn⟩))
    else
      (tileLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) rowM (Memref.isWhole_whole _) colM (Memref.isWhole_whole _) (fun h => h0 ((condFirst_iff ⟨n + 1, hn⟩).mp h)) (iblk m c 1 ⟨n + 1, hn⟩) (iblk m c 2 ⟨n + 1, hn⟩) (outsAt c n (Nat.lt_of_succ_lt hn)).2,
       (outsAt c n (Nat.lt_of_succ_lt hn)).2)

/-- `outsAt` at the first tile of a row. -/
theorem outsAt_first (c : Dev nD) (t : Fin cfg0.N) (h0 : t.val % 4 = 0) :
    outsAt m c t.val t.isLt =
      (tileFirst c (grid0.coords t) (ms0 t) (hs0 t) (ms1 t) (hs1 t) (ms2 t) (hs2 t) (ms3 t) (hs3 t) rowM (Memref.isWhole_whole _) colM (Memref.isWhole_whole _) ((condFirst_iff t).mpr h0) (iblk m c 0 t) (iblk m c 1 t) (iblk m c 2 t),
       rowFirst c (grid0.coords t) (ms0 t) (hs0 t) (ms1 t) (hs1 t) (ms2 t) (hs2 t) (ms3 t) (hs3 t) rowM (Memref.isWhole_whole _) colM (Memref.isWhole_whole _) ((condFirst_iff t).mpr h0) (iblk m c 0 t) (iblk m c 1 t) (iblk m c 2 t)) := by
  obtain ⟨n, hn⟩ := t
  cases n with
  | zero => exact rfl
  | succ n => exact (dif_pos h0).trans rfl

/-- `outsAt` at a later tile of a row. -/
theorem outsAt_later (c : Dev nD) (t : Fin cfg0.N) (h0 : ¬t.val % 4 = 0) :
    outsAt m c t.val t.isLt =
      (tileLater c (grid0.coords t) (ms0 t) (hs0 t) (ms1 t) (hs1 t) (ms2 t) (hs2 t) (ms3 t) (hs3 t) rowM (Memref.isWhole_whole _) colM (Memref.isWhole_whole _) (fun h => h0 ((condFirst_iff t).mp h)) (iblk m c 1 t) (iblk m c 2 t) (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- The region invariant before position `n`: before the first point both scratch buffers at anything; afterwards the row
    scratch at what the point before left in it, the column scratch at anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) rowM fullShare ((outsAt m c n hn).2) ∗ (∃ d, owns (c : Thread nD τ) colM fullShare d))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) rowM fullShare ((outsAt m c n hn).2) ∗ (∃ d, owns (c : Thread nD τ) colM fullShare d)) := rfl

theorem PhiS_pos (c : Dev nD) (n : ℕ) (h : n ≤ cfg0.N) (hz : n ≠ 0) :
    PhiS m c n h = iprop(owns (c : Thread nD τ) rowM fullShare ((outsAt m c (n - 1) (by omega)).2) ∗ (∃ d, owns (c : Thread nD τ) colM fullShare d)) := by
  cases n with
  | zero => exact absurd rfl hz
  | succ n => rfl

/-! ## The proof data -/

/-- The proof data on core `c`: the arrays as the region finds them; after the body each input's buffer at its block and
    the output's at the product tile; the invariant above; nothing owed. The one array the row and the column windows
    both read is held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current staging buffer holds its block at every point, fetched there or not: unfetched, the block's
    index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 4800000 in
/-- The body at any point: the inputs' buffers hold their blocks; the point is the first tile of its row or a later one;
    the invariant hands the body the row scratch at what the point before left (at anything before a row's first tile)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [after0, after1, after2, after3]
  have hN : t.val < 16 := lt_of_lt_of_eq t.isLt (show cfg0.N = 16 from N_0)
  by_cases h0 : t.val % 4 = 0
  · rw [outsAt_first m c t h0]
    unfold tileFirst rowFirst; (try dsimp only)
    have hrun := (runFirst c (grid0.coords t) (ms0 t) (hs0 t) (ms1 t) (hs1 t) (ms2 t) (hs2 t) (ms3 t) (hs3 t) rowM (Memref.isWhole_whole _) colM (Memref.isWhole_whole _) ((condFirst_iff t).mpr h0) (iblk m c 0 t) (iblk m c 1 t) (iblk m c 2 t)).2.2.2 Set.univ
    have hentry : (dats m 0 c).Φ t.castSucc ⊢ iprop((∃ d, owns (c : Thread nD τ) rowM fullShare d) ∗ (∃ d, owns (c : Thread nD τ) colM fullShare d)) := by
      by_cases hz : t.val = 0
      · rw [PhiS_castSucc m c t, PhiS_zero m c _ _ hz, scoped_eq]
      · rw [PhiS_castSucc m c t, PhiS_pos m c _ _ hz]
        iintro ⟨HR, HC⟩
        isplitl [HR]
        · iexists _; iexact HR
        · iexact HC
    iintro ⟨HΦ, Ho, ⟨%d0, H0⟩, ⟨%d1, H1⟩, ⟨%d2, H2⟩, ⟨%d3, H3⟩⟩
    ihave HΦ' := hentry $$ HΦ
    icases HΦ' with ⟨HR, HC⟩
    iapply (hrun _)
    isplitl [H0]; · iexact H0
    isplitl [H1]; · iexact H1
    isplitl [H2]; · iexact H2
    isplitl [H3]; · iexists _; iexact H3
    isplitl [HR]; · iexact HR
    isplitl [HC]; · iexact HC
    iintro ⟨H0, H1, H2, ⟨%e5, H5⟩, ⟨%e6, H6⟩, ⟨%e7, H7⟩⟩
    isplitl [H6 H7]
    · isplitl [H6]
      · unfold owns; iexists _; isplitr
        swap; · iexact H6
        ipureintro; exact View.read_writes_of_cover _ _ _ _ _ (coverFirstRow c _ _ _ _ _ _ _ _ _ _ _ _ _ _ _ _ _)
      · unfold owns; iexists _; iexists _; isplitr
        swap; · iexact H7
        ipureintro; rfl
    isplitl [Ho]; · iexact Ho
    isplitl [H0]; · iexact H0
    isplitl [H1]; · iexact H1
    isplitl [H2]; · iexact H2
    unfold owns; iexists _; isplitr
    swap; · iexact H5
    ipureintro; exact View.read_writes_of_cover _ _ _ _ _ (coverFirstTile c _ _ _ _ _ _ _ _ _ _ _ _ _ _ _ _ _)
  · rw [outsAt_later m c t h0]
    unfold tileLater; (try dsimp only)
    have hz : t.val ≠ 0 := fun h => h0 (by rw [h])
    have hrun := (runLater c (grid0.coords t) (ms0 t) (hs0 t) (ms1 t) (hs1 t) (ms2 t) (hs2 t) (ms3 t) (hs3 t) rowM (Memref.isWhole_whole _) colM (Memref.isWhole_whole _) (fun h => h0 ((condFirst_iff t).mp h)) (iblk m c 1 t) (iblk m c 2 t) (outsAt m c (t.val - 1) (Nat.lt_of_le_of_lt (Nat.sub_le _ _) t.isLt)).2).2.2 (iblk m c 0 t) Set.univ
    rw [PhiS_castSucc m c t, PhiS_pos m c _ _ hz]
    iintro ⟨⟨HR, HC⟩, Ho, ⟨%d0, H0⟩, ⟨%d1, H1⟩, ⟨%d2, H2⟩, ⟨%d3, H3⟩⟩
    iapply (hrun _)
    isplitl [H0]; · iexact H0
    isplitl [H1]; · iexact H1
    isplitl [H2]; · iexact H2
    isplitl [H3]; · iexists _; iexact H3
    isplitl [HR]; · iexact HR
    isplitl [HC]; · iexact HC
    iintro ⟨H0, H1, H2, ⟨%e5, H5⟩, HR, ⟨%e7, H7⟩⟩
    isplitl [HR H7]
    · isplitl [HR]
      · iexact HR
      · unfold owns; iexists _; iexists _; isplitr
        swap; · iexact H7
        ipureintro; rfl
    isplitl [Ho]; · iexact Ho
    isplitl [H0]; · iexact H0
    isplitl [H1]; · iexact H1
    isplitl [H2]; · iexact H2
    unfold owns; iexists _; isplitr
    swap; · iexact H5
    ipureintro; exact View.read_writes_of_cover _ _ _ _ _ (coverLaterTile c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.BitsLaunch.lean ====
/-
  The launch of the tile pipeline and the program's frame.

  The row window and the column window read ONE array, so the launch hands the pipeline that array once, whole, and the
  proof deals it half to each window; the weights' array and the result's are held whole. The run then has every array
  of the pipeline at what the library computes from the proof data: an input its entry contents, the result its entry
  contents overwritten tile by tile.
-/
import proofs.«167289_j14869176779021_2_alg».proof.Proof.BitsData
import Idealize.ShloMosaic.Lib.Pipeline.Launch

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at its entry contents, are the pipeline's arrays at entry: the
    array the row and the column windows share is split in two halves. -/
theorem split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show Finset.univ.image (Pipeline.arrRef spec0) = {main_arg0, main_arg1, main_v0} from by decide,
    bigSep_insert (by decide), bigSep_insert (by decide), bigSep_singleton, bigSep_W0]
  rw [(arr_whole0 0).set_eq_univ, (arr_whole0 2).set_eq_univ, (arr_whole0 3).set_eq_univ]
  rw [show (dats m 0 c).share 0 = fullShare.left from rfl, show (dats m 0 c).share 1 = fullShare.right from rfl,
    show (dats m 0 c).share 2 = fullShare from rfl, show (dats m 0 c).share 3 = fullShare from rfl]
  show iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0)) ⊢ _
  iintro ⟨H0, H1, H2⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H2

/-- What the launch hands the region of scoped buffers is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After any point but the first the invariant gives the scoped buffers back, the row scratch's contents forgotten. -/
theorem Phi_out (c : Dev nD) (t : Fin (cfg0.N + 1)) (ht : t.val ≠ 0) :
    (dats m 0 c).Φ t ⊢ iprop((BI.emp : sProp 𝕄) ∗ Pipeline.scopedRest (Ix := Unit) (Name := ℕ) (U := UR sig nD τ) (Lvl := ℕ) (Val := Elt F) spec0 c) := by
  rw [show (dats m 0 c).Φ t = PhiS m c t.val (Nat.le_of_lt_succ t.isLt) from rfl, PhiS_pos m c _ _ ht, scoped_eq]
  iintro ⟨HR, HC⟩
  isplitr; · iempintro
  isplitl [HR]
  · iexists _; iexact HR
  iexact HC

theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) :=
  Phi_out m c _ (by rw [Fin.val_last]; have : cfg0.N = 16 := N_0; omega)

/-- The launch element: every staging cell's owner at round 0 and a token for every transfer the pipeline issues. -/
def u₀ : UR sig nD τ := initOf (Pipeline.cells cfgs cellOf_inj) (Pipeline.launchToks cfgs cellOf_inj)

/-- The run's post: every array of the pipeline holds what the library computes from the proof data. -/
def Post : PUnit × MemSt nD τ sig (Elt F) → Prop := fun r =>
  ∀ (c : Dev nD) (w : Fin cfg0.W), r.2.mem ((cfg0.spec w).arr.view.loc (c : Thread nD τ)) = (dats m 0 c).arrAt w cfg0.N

set_option backward.isDefEq.respectTransparency.types false in
/-- At the compiled mesh, for any values, from any memory with zero counters: every weakly fair execution of the program
    on the TensorCores terminates, nothing faulting, with every array of the pipeline at the computed contents. -/
theorem run_main : θ_run defs (onTc (τ := τ) (main (F := F))) (s₀ m ρ) (Post m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := .rfl)
    (V := V m) (hmain := hmain m Variants.none) (hsplit := split m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The frame: the two argument arrays are inputs of the pipeline, so they end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 2).trans (((dats m 0 c).arrAt_in 2 rfl _).trans (A_eq m c 2))⟩) (run_main m ρ)

end Cert.Kernel.Tile

end
-- ==== Proof.IdealCommon.lean ====
/-
  What the two runs of the tile body, the proof data and the launch share: the region's entry contents, the windows'
  blocks, the body's one branch (is this the first tile of its row of tiles?) decided over the grid, and the staging
  and scratch buffers by name.

  The grid is 4 x 4 tiles of 1024 x 1024, visited row by row. At the first tile of a row the body normalises the row
  block's 16 weighted copies into the row scratch; at every tile it does the same for the column block into the column
  scratch, multiplies the two scratches (one against the other's transpose), scales by 1/16 and masks. The row scratch
  is carried from the first tile of a row to the three tiles after it.
-/
import proofs.«167289_j14869176779021_2_alg».proof.Proof.Gen.KernelIdeal.Launch
import proofs.«167289_j14869176779021_2_alg».proof.Proof.Gen.KernelIdeal.Skeleton
import proofs.«167289_j14869176779021_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- A core's buffers when the region is entered: as launched (the program is the region alone). -/
abbrev V (c : Dev nD) (b : Ref sig .tc) : Buf (Elt F) ((c : Thread nD τ).loc b) := m ((c : Thread nD τ).loc b)

/-- The program up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The body's one branch: the second grid coordinate is zero — the tile is the first of its row of tiles. -/
abbrev condFirst (i : grid0.Coords) : Prop := (Scalar.cmpi .ne (Scalar.extui (Scalar.cmpi .eq (BitVec.ofNat 32 (i 1).val) 0#32)) 0#32) = 1#1
/-- Over the grid: the points that are multiples of 4. -/
theorem condFirst_iff : ∀ t : Fin cfg0.N, condFirst (grid0.coords t) ↔ t.val % 4 = 0 :=
  (by decide +kernel : ∀ t : Fin grid0.N, condFirst (grid0.coords t) ↔ t.val % 4 = 0)

/-! ## The buffers by name -/

/-- Each window's current staging buffer at point `t`, as the pipeline passes it to the body, and its wholeness. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The row scratch (carried along a row of tiles) and the column scratch (rebuilt at every tile). -/
abbrev rowM : Memref sig .tc .vmem S1024x2048 .bf16 := Memref.whole cc0_scratch0
abbrev colM : Memref sig .tc .vmem S1024x2048 .bf16 := Memref.whole cc0_scratch1
/-- The views through which the output tile's and the row scratch's contents are stated. -/
abbrev VO : View sig .tc .vmem S1024x1024 .f32 := (Memref.whole cc0_stg3_0 : Memref sig .tc .vmem S1024x1024 .f32).view
abbrev VR : View sig .tc .vmem S1024x2048 .bf16 := rowM.view

/-- The scoped buffers the pipeline does not stage are the two scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) rowM fullShare d) ∗ (∃ d, owns (c : Thread nD τ) colM fullShare d)) := by
  rw [scopedRest0_eq]; simp only [rowM, colM, owns_whole]; try rfl

end Cert.KernelIdeal.Tile

end
-- ==== Proof.IdealRunFirst.lean ====
/-
  The tile body run once at symbolic operands, in the case of the first tile of a row: both scratch buffers are rebuilt.
  The lists of pieces each written buffer ends with are the witnesses the symbolic run finds.
-/
import proofs.«167289_j14869176779021_2_alg».proof.Proof.IdealCommon

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first tile of a row: from the three input buffers at their blocks and the output and both scratch buffers at
    anything, the body runs to its return with the inputs as they were and the output tile, the row scratch and the column
    scratch each with its pieces written. -/
noncomputable def runFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) :
    Σ' (L5 : List (View.Piece (Elt F) S1024x1024 .f32)) (L6 : List (View.Piece (Elt F) S1024x2048 .bf16)), { L7 : List (View.Piece (Elt F) S1024x2048 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, ?_, fun E K => ?run⟩
  case run =>
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf2; obtain rfl := harg3.eq_unread hf3; obtain rfl := harg4.eq_unread hf4
    sl_exec_parts (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.KernelIdeal.Tile

end
-- ==== Proof.IdealRunLater.lean ====
/-
  The tile body run once at symbolic operands, in the case of a tile that is not the first of its row: the row scratch is read as the row's first tile left it.
  The lists of pieces each written buffer ends with are the witnesses the symbolic run finds.
-/
import proofs.«167289_j14869176779021_2_alg».proof.Proof.IdealCommon

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later tile of a row: from the column block's and the weights' buffers at their contents, the row scratch at what
    the row's first tile left in it, and the row block's buffer, the output and the column scratch at anything, the body
    runs to its return with the inputs and the row scratch as they were and the output tile and the column scratch each
    with its pieces written. -/
noncomputable def runLater (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : ¬condFirst i)
    (x3 : Vec F S1024x128 .f32) (x4 : Vec F S16x128 .f32) (xs6 : Vec F S1024x2048 .bf16) :
    Σ' (L5 : List (View.Piece (Elt F) S1024x1024 .f32)), { L7 : List (View.Piece (Elt F) S1024x2048 .bf16) //
      ∀ (x2 : Vec F S1024x128 .f32) (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare xs6 ∗ (∃ d, owns (c : Thread nD τ) arg7 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ owns (c : Thread nD τ) arg6 fullShare xs6
                ∗ (∃ f, arg7.view.loc (c : Thread nD τ) ↦[arg7.view.set]{fullShare} arg7.view.writes (Elt F) f L7)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun x2 E K => ?run⟩
  case run =>
    unfold owns
    iintro ⟨⟨%f2, %hf2, H2⟩, ⟨%f3, %hf3, H3⟩, ⟨%f4, %hf4, H4⟩, ⟨%d5, %f5, -, H5⟩, ⟨%f6, %hf6, H6⟩, ⟨%d7, %f7, -, H7⟩, Hk⟩
    obtain rfl := harg2.eq_unread hf2; obtain rfl := harg3.eq_unread hf3; obtain rfl := harg4.eq_unread hf4; obtain rfl := harg6.eq_unread hf6
    sl_exec_parts (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; iexact H7

end Cert.KernelIdeal.Tile

end
-- ==== Proof.IdealData.lean ====
/-
  The proof data of the tile pipeline and its body obligation.

  After the body at a point the output staging buffer holds the masked product tile and the row scratch holds the
  normalised row block — built at the first tile of a row, kept at the three tiles after it. Both are given by
  recursion on the point: a later tile's product reads the row scratch the point before left.
-/
import proofs.«167289_j14869176779021_2_alg».proof.Proof.IdealRunFirst
import proofs.«167289_j14869176779021_2_alg».proof.Proof.IdealRunLater
import Idealize.ShloMosaic.Lib.Pipeline.Frame

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first tile of a row the output's pieces tile its block, -/
theorem coverFirstTile (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) (y : S1024x1024.Idx) :
    ∃ pc ∈ (runFirst c i arg2 harg2 arg3 harg3 arg4 harg4 arg5 harg5 arg6 harg6 arg7 harg7 hc x2 x3 x4).1, y ∈ pc.1.set :=
  View.cover_of_tiledL (runFirst c i arg2 harg2 arg3 harg3 arg4 harg4 arg5 harg5 arg6 harg6 arg7 harg7 hc x2 x3 x4).1 S1024x1024.size (by sl_kernel_rfl) y

/-- and the row scratch's sixteen column slices tile it. -/
theorem coverFirstRow (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) (y : S1024x2048.Idx) :
    ∃ pc ∈ (runFirst c i arg2 harg2 arg3 harg3 arg4 harg4 arg5 harg5 arg6 harg6 arg7 harg7 hc x2 x3 x4).2.1, y ∈ pc.1.set :=
  View.cover_of_tiledL (runFirst c i arg2 harg2 arg3 harg3 arg4 harg4 arg5 harg5 arg6 harg6 arg7 harg7 hc x2 x3 x4).2.1 S1024x128.size (by sl_kernel_rfl) y

/-- At a later tile the output's pieces tile its block. -/
theorem coverLaterTile (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : ¬condFirst i)
    (x3 : Vec F S1024x128 .f32) (x4 : Vec F S16x128 .f32) (xs6 : Vec F S1024x2048 .bf16) (y : S1024x1024.Idx) :
    ∃ pc ∈ (runLater c i arg2 harg2 arg3 harg3 arg4 harg4 arg5 harg5 arg6 harg6 arg7 harg7 hc x3 x4 xs6).1, y ∈ pc.1.set :=
  View.cover_of_tiledL (runLater c i arg2 harg2 arg3 harg3 arg4 harg4 arg5 harg5 arg6 harg6 arg7 harg7 hc x3 x4 xs6).1 S1024x1024.size (by sl_kernel_rfl) y

/-- The product tile the first tile of a row stores: its pieces read back. -/
def tileFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) : Vec F S1024x1024 .f32 :=
  VO.read (Elt F) (VO.writes (Elt F) VO.junk (runFirst c i arg2 harg2 arg3 harg3 arg4 harg4 arg5 harg5 arg6 harg6 arg7 harg7 hc x2 x3 x4).1)

/-- The row scratch the first tile of a row builds: its pieces read back. -/
def rowFirst (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) : Vec F S1024x2048 .bf16 :=
  VR.read (Elt F) (VR.writes (Elt F) VR.junk (runFirst c i arg2 harg2 arg3 harg3 arg4 harg4 arg5 harg5 arg6 harg6 arg7 harg7 hc x2 x3 x4).2.1)

/-- The product tile a later tile stores, from the row scratch it finds: its pieces read back. -/
def tileLater (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : ¬condFirst i)
    (x3 : Vec F S1024x128 .f32) (x4 : Vec F S16x128 .f32) (xs6 : Vec F S1024x2048 .bf16) : Vec F S1024x1024 .f32 :=
  VO.read (Elt F) (VO.writes (Elt F) VO.junk (runLater c i arg2 harg2 arg3 harg3 arg4 harg4 arg5 harg5 arg6 harg6 arg7 harg7 hc x3 x4 xs6).1)

/-! ## After each point -/

/-- What the output staging buffer and the row scratch hold after the body at position `n`: at a multiple of 4 what the
    first-tile case builds from the point's blocks; otherwise the later-tile case's product over the row scratch the
    point before left, and that row scratch again. -/
def outsAt (c : Dev nD) : (n : ℕ) → n < cfg0.N → Vec F S1024x1024 .f32 × Vec F S1024x2048 .bf16
  | 0, hn =>
    (tileFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) rowM (Memref.isWhole_whole _) colM (Memref.isWhole_whole _) ((condFirst_iff ⟨0, hn⟩).mpr (Nat.zero_mod _)) (iblk m c 0 ⟨0, hn⟩) (iblk m c 1 ⟨0, hn⟩) (iblk m c 2 ⟨0, hn⟩),
     rowFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) rowM (Memref.isWhole_whole _) colM (Memref.isWhole_whole _) ((condFirst_iff ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (tileFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) rowM (Memref.isWhole_whole _) colM (Memref.isWhole_whole _) ((condFirst_iff ⟨n + 1, hn⟩).mpr h0) (iblk m c 0 ⟨n + 1, hn⟩) (iblk m c 1 ⟨n + 1, hn⟩) (iblk m c 2 ⟨n + 1, hn⟩),
       rowFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) rowM (Memref.isWhole_whole _) colM (Memref.isWhole_whole _) ((condFirst_iff ⟨n + 1, hn⟩).mpr h0) (iblk m c 0 ⟨n + 1, hn⟩) (iblk m c 1 ⟨n + 1, hn⟩) (iblk m c 2 ⟨n + 1, hn⟩))
    else
      (tileLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) rowM (Memref.isWhole_whole _) colM (Memref.isWhole_whole _) (fun h => h0 ((condFirst_iff ⟨n + 1, hn⟩).mp h)) (iblk m c 1 ⟨n + 1, hn⟩) (iblk m c 2 ⟨n + 1, hn⟩) (outsAt c n (Nat.lt_of_succ_lt hn)).2,
       (outsAt c n (Nat.lt_of_succ_lt hn)).2)

/-- `outsAt` at the first tile of a row. -/
theorem outsAt_first (c : Dev nD) (t : Fin cfg0.N) (h0 : t.val % 4 = 0) :
    outsAt m c t.val t.isLt =
      (tileFirst c (grid0.coords t) (ms0 t) (hs0 t) (ms1 t) (hs1 t) (ms2 t) (hs2 t) (ms3 t) (hs3 t) rowM (Memref.isWhole_whole _) colM (Memref.isWhole_whole _) ((condFirst_iff t).mpr h0) (iblk m c 0 t) (iblk m c 1 t) (iblk m c 2 t),
       rowFirst c (grid0.coords t) (ms0 t) (hs0 t) (ms1 t) (hs1 t) (ms2 t) (hs2 t) (ms3 t) (hs3 t) rowM (Memref.isWhole_whole _) colM (Memref.isWhole_whole _) ((condFirst_iff t).mpr h0) (iblk m c 0 t) (iblk m c 1 t) (iblk m c 2 t)) := by
  obtain ⟨n, hn⟩ := t
  cases n with
  | zero => exact rfl
  | succ n => exact (dif_pos h0).trans rfl

/-- `outsAt` at a later tile of a row. -/
theorem outsAt_later (c : Dev nD) (t : Fin cfg0.N) (h0 : ¬t.val % 4 = 0) :
    outsAt m c t.val t.isLt =
      (tileLater c (grid0.coords t) (ms0 t) (hs0 t) (ms1 t) (hs1 t) (ms2 t) (hs2 t) (ms3 t) (hs3 t) rowM (Memref.isWhole_whole _) colM (Memref.isWhole_whole _) (fun h => h0 ((condFirst_iff t).mp h)) (iblk m c 1 t) (iblk m c 2 t) (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- The region invariant before position `n`: before the first point both scratch buffers at anything; afterwards the row
    scratch at what the point before left in it, the column scratch at anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) rowM fullShare ((outsAt m c n hn).2) ∗ (∃ d, owns (c : Thread nD τ) colM fullShare d))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) rowM fullShare ((outsAt m c n hn).2) ∗ (∃ d, owns (c : Thread nD τ) colM fullShare d)) := rfl

theorem PhiS_pos (c : Dev nD) (n : ℕ) (h : n ≤ cfg0.N) (hz : n ≠ 0) :
    PhiS m c n h = iprop(owns (c : Thread nD τ) rowM fullShare ((outsAt m c (n - 1) (by omega)).2) ∗ (∃ d, owns (c : Thread nD τ) colM fullShare d)) := by
  cases n with
  | zero => exact absurd rfl hz
  | succ n => rfl

/-! ## The proof data -/

/-- The proof data on core `c`: the arrays as the region finds them; after the body each input's buffer at its block and
    the output's at the product tile; the invariant above; nothing owed. The one array the row and the column windows
    both read is held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current staging buffer holds its block at every point, fetched there or not: unfetched, the block's
    index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 4800000 in
/-- The body at any point: the inputs' buffers hold their blocks; the point is the first tile of its row or a later one;
    the invariant hands the body the row scratch at what the point before left (at anything before a row's first tile)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [after0, after1, after2, after3]
  have hN : t.val < 16 := lt_of_lt_of_eq t.isLt (show cfg0.N = 16 from N_0)
  by_cases h0 : t.val % 4 = 0
  · rw [outsAt_first m c t h0]
    unfold tileFirst rowFirst; (try dsimp only)
    have hrun := (runFirst c (grid0.coords t) (ms0 t) (hs0 t) (ms1 t) (hs1 t) (ms2 t) (hs2 t) (ms3 t) (hs3 t) rowM (Memref.isWhole_whole _) colM (Memref.isWhole_whole _) ((condFirst_iff t).mpr h0) (iblk m c 0 t) (iblk m c 1 t) (iblk m c 2 t)).2.2.2 Set.univ
    have hentry : (dats m 0 c).Φ t.castSucc ⊢ iprop((∃ d, owns (c : Thread nD τ) rowM fullShare d) ∗ (∃ d, owns (c : Thread nD τ) colM fullShare d)) := by
      by_cases hz : t.val = 0
      · rw [PhiS_castSucc m c t, PhiS_zero m c _ _ hz, scoped_eq]
      · rw [PhiS_castSucc m c t, PhiS_pos m c _ _ hz]
        iintro ⟨HR, HC⟩
        isplitl [HR]
        · iexists _; iexact HR
        · iexact HC
    iintro ⟨HΦ, Ho, ⟨%d0, H0⟩, ⟨%d1, H1⟩, ⟨%d2, H2⟩, ⟨%d3, H3⟩⟩
    ihave HΦ' := hentry $$ HΦ
    icases HΦ' with ⟨HR, HC⟩
    iapply (hrun _)
    isplitl [H0]; · iexact H0
    isplitl [H1]; · iexact H1
    isplitl [H2]; · iexact H2
    isplitl [H3]; · iexists _; iexact H3
    isplitl [HR]; · iexact HR
    isplitl [HC]; · iexact HC
    iintro ⟨H0, H1, H2, ⟨%e5, H5⟩, ⟨%e6, H6⟩, ⟨%e7, H7⟩⟩
    isplitl [H6 H7]
    · isplitl [H6]
      · unfold owns; iexists _; isplitr
        swap; · iexact H6
        ipureintro; exact View.read_writes_of_cover _ _ _ _ _ (coverFirstRow c _ _ _ _ _ _ _ _ _ _ _ _ _ _ _ _ _)
      · unfold owns; iexists _; iexists _; isplitr
        swap; · iexact H7
        ipureintro; rfl
    isplitl [Ho]; · iexact Ho
    isplitl [H0]; · iexact H0
    isplitl [H1]; · iexact H1
    isplitl [H2]; · iexact H2
    unfold owns; iexists _; isplitr
    swap; · iexact H5
    ipureintro; exact View.read_writes_of_cover _ _ _ _ _ (coverFirstTile c _ _ _ _ _ _ _ _ _ _ _ _ _ _ _ _ _)
  · rw [outsAt_later m c t h0]
    unfold tileLater; (try dsimp only)
    have hz : t.val ≠ 0 := fun h => h0 (by rw [h])
    have hrun := (runLater c (grid0.coords t) (ms0 t) (hs0 t) (ms1 t) (hs1 t) (ms2 t) (hs2 t) (ms3 t) (hs3 t) rowM (Memref.isWhole_whole _) colM (Memref.isWhole_whole _) (fun h => h0 ((condFirst_iff t).mp h)) (iblk m c 1 t) (iblk m c 2 t) (outsAt m c (t.val - 1) (Nat.lt_of_le_of_lt (Nat.sub_le _ _) t.isLt)).2).2.2 (iblk m c 0 t) Set.univ
    rw [PhiS_castSucc m c t, PhiS_pos m c _ _ hz]
    iintro ⟨⟨HR, HC⟩, Ho, ⟨%d0, H0⟩, ⟨%d1, H1⟩, ⟨%d2, H2⟩, ⟨%d3, H3⟩⟩
    iapply (hrun _)
    isplitl [H0]; · iexact H0
    isplitl [H1]; · iexact H1
    isplitl [H2]; · iexact H2
    isplitl [H3]; · iexists _; iexact H3
    isplitl [HR]; · iexact HR
    isplitl [HC]; · iexact HC
    iintro ⟨H0, H1, H2, ⟨%e5, H5⟩, HR, ⟨%e7, H7⟩⟩
    isplitl [HR H7]
    · isplitl [HR]
      · iexact HR
      · unfold owns; iexists _; iexists _; isplitr
        swap; · iexact H7
        ipureintro; rfl
    isplitl [Ho]; · iexact Ho
    isplitl [H0]; · iexact H0
    isplitl [H1]; · iexact H1
    isplitl [H2]; · iexact H2
    unfold owns; iexists _; isplitr
    swap; · iexact H5
    ipureintro; exact View.read_writes_of_cover _ _ _ _ _ (coverLaterTile c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.IdealScratch.lean ====
/-
  What the two scratch buffers and the output tile hold, as functions of the blocks.

  The body writes a scratch buffer as sixteen column slices of width 128: slice p is the block's rows scaled by weight
  row p and divided by their norm (floored at a small constant). So the scratch is ONE function of the block and the
  weights: column k holds slice k / 128 at feature k % 128. The output tile is the masked, scaled product of the row
  scratch with the column scratch's transpose.
-/
import proofs.«167289_j14869176779021_2_alg».proof.Proof.IdealData
import Idealize.ShloMosaic.Lib.Pipeline.Value
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-! ## One slice: every slice's payload is the same function of the block and one weight row -/

theorem pay1_eq (x : Vec F S1024x128 .f32) (w : Vec F S1x128 .f32) : k0_pay1 x w = k0_pay26 x w := rfl
theorem pay2_eq (x : Vec F S1024x128 .f32) (w : Vec F S1x128 .f32) : k0_pay2 x w = k0_pay26 x w := rfl
theorem pay6_eq (x : Vec F S1024x128 .f32) (w : Vec F S1x128 .f32) : k0_pay6 x w = k0_pay26 x w := rfl
theorem pay9_eq (x : Vec F S1024x128 .f32) (w : Vec F S1x128 .f32) : k0_pay9 x w = k0_pay26 x w := rfl
theorem pay10_eq (x : Vec F S1024x128 .f32) (w : Vec F S1x128 .f32) : k0_pay10 x w = k0_pay26 x w := rfl
theorem pay14_eq (x : Vec F S1024x128 .f32) (w : Vec F S1x128 .f32) : k0_pay14 x w = k0_pay26 x w := rfl
theorem pay17_eq (x : Vec F S1024x128 .f32) (w : Vec F S1x128 .f32) : k0_pay17 x w = k0_pay26 x w := rfl
theorem pay18_eq (x : Vec F S1024x128 .f32) (w : Vec F S1x128 .f32) : k0_pay18 x w = k0_pay26 x w := rfl
theorem pay22_eq (x : Vec F S1024x128 .f32) (w : Vec F S1x128 .f32) : k0_pay22 x w = k0_pay26 x w := rfl
theorem pay25_eq (x : Vec F S1024x128 .f32) (w : Vec F S1x128 .f32) : k0_pay25 x w = k0_pay26 x w := rfl
theorem pay27_eq (x : Vec F S1024x128 .f32) (w : Vec F S1x128 .f32) : k0_pay27 x w = k0_pay26 x w := rfl
theorem pay28_eq (x : Vec F S1024x128 .f32) (w : Vec F S1x128 .f32) : k0_pay28 x w = k0_pay26 x w := rfl
theorem pay29_eq (x : Vec F S1024x128 .f32) (w : Vec F S1x128 .f32) : k0_pay29 x w = k0_pay26 x w := rfl
theorem pay33_eq (x : Vec F S1024x128 .f32) (w : Vec F S1x128 .f32) : k0_pay33 x w = k0_pay26 x w := rfl
theorem pay34_eq (x : Vec F S1024x128 .f32) (w : Vec F S1x128 .f32) : k0_pay34 x w = k0_pay26 x w := rfl
theorem pay35_eq (x : Vec F S1024x128 .f32) (w : Vec F S1x128 .f32) : k0_pay35 x w = k0_pay26 x w := rfl
theorem pay36_eq (x : Vec F S1024x128 .f32) (w : Vec F S1x128 .f32) : k0_pay36 x w = k0_pay26 x w := rfl
theorem pay40_eq (x : Vec F S1024x128 .f32) (w : Vec F S1x128 .f32) : k0_pay40 x w = k0_pay26 x w := rfl
theorem pay41_eq (x : Vec F S1024x128 .f32) (w : Vec F S1x128 .f32) : k0_pay41 x w = k0_pay26 x w := rfl
theorem pay42_eq (x : Vec F S1024x128 .f32) (w : Vec F S1x128 .f32) : k0_pay42 x w = k0_pay26 x w := rfl
theorem pay43_eq (x : Vec F S1024x128 .f32) (w : Vec F S1x128 .f32) : k0_pay43 x w = k0_pay26 x w := rfl
theorem pay47_eq (x : Vec F S1024x128 .f32) (w : Vec F S1x128 .f32) : k0_pay47 x w = k0_pay26 x w := rfl
theorem pay5_eq (x : Vec F S1024x128 .f32) (w : Vec F S1x128 .f32) : k0_pay5 (k0_pay3 x w) (k0_pay4 x w) = k0_pay26 x w := rfl
theorem pay13_eq (x : Vec F S1024x128 .f32) (w : Vec F S1x128 .f32) : k0_pay13 (k0_pay11 x w) (k0_pay12 x w) = k0_pay26 x w := rfl
theorem pay21_eq (x : Vec F S1024x128 .f32) (w : Vec F S1x128 .f32) : k0_pay21 (k0_pay19 x w) (k0_pay20 x w) = k0_pay26 x w := rfl
theorem pay8_eq (x : Vec F S1024x128 .f32) (w : Vec F S1x128 .f32) : k0_pay8 (k0_pay7 x w) = k0_pay26 x w := rfl
theorem pay16_eq (x : Vec F S1024x128 .f32) (w : Vec F S1x128 .f32) : k0_pay16 (k0_pay15 x w) = k0_pay26 x w := rfl
theorem pay24_eq (x : Vec F S1024x128 .f32) (w : Vec F S1x128 .f32) : k0_pay24 (k0_pay23 x w) = k0_pay26 x w := rfl
theorem pay32_eq (x : Vec F S1024x128 .f32) (w : Vec F S1x128 .f32) : k0_pay32 (k0_pay30 x w) (k0_pay31 x w) (FloatOps.ofBits .f32 0x2B8CBCCC#32) = k0_pay26 x w := rfl
theorem pay39_eq (x : Vec F S1024x128 .f32) (w : Vec F S1x128 .f32) : k0_pay39 (k0_pay37 x w) (k0_pay38 x w) (FloatOps.ofBits .f32 0x2B8CBCCC#32) = k0_pay26 x w := rfl
theorem pay46_eq (x : Vec F S1024x128 .f32) (w : Vec F S1x128 .f32) : k0_pay46 (k0_pay44 x w) (k0_pay45 x w) (FloatOps.ofBits .f32 0x2B8CBCCC#32) = k0_pay26 x w := rfl

/-! ## The scratch as one function -/

/-- Row `p` of the weights as a [1, 128] vector. -/
def wrow (x4 : Vec F S16x128 .f32) (p : Fin 16) : Vec F S1x128 .f32 := fun z => x4 (ix2 p ⟨(z 1).val, (z 1).isLt⟩)

/-- The concatenated normalised block: column `k` holds the slice of weight row `k / 128` at feature `k % 128`. -/
def cat (x : Vec F S1024x128 .f32) (x4 : Vec F S16x128 .f32) : Vec F S1024x2048 .bf16 := fun y =>
  k0_pay26 x (wrow x4 ⟨(y 1).val / 128 % 16, Nat.mod_lt _ (by decide)⟩)
    (ix2 (⟨(y 0).val, (y 0).isLt⟩ : Fin 1024) (⟨(y 1).val % 128, Nat.mod_lt _ (by decide)⟩ : Fin 128))

/-- A weight row loaded through its rectangle is that row. -/
theorem ld_row (x4 : Vec F S16x128 .f32) (j : Nat) (hj : j < 16)
    (inbw : ∀ a, (![j, 0] : Fin 2 → Nat) a + S1x128.size a ≤ S16x128.size a) :
    View.ld x4 (Rect.unit (s := S16x128) ![j, 0] S1x128.size inbw) = wrow x4 ⟨j, hj⟩ := by
  funext u
  show x4 ((Rect.unit (s := S16x128) ![j, 0] S1x128.size inbw).emb u) = x4 (ix2 (⟨j, hj⟩ : Fin 16) ⟨(u 1).val, (u 1).isLt⟩)
  congr 1
  funext a
  apply Fin.ext
  have hu0 : (u 0).val < 1 := (u 0).isLt
  match a with
  | ⟨0, _⟩ => show j + 1 * (u 0).val = j; omega
  | ⟨1, _⟩ => show 0 + 1 * (u 1).val = (u 1).val; omega

/-- The slice stored at column offset `o = 128 · j` is the concatenated block there. -/
theorem piece_cat (x : Vec F S1024x128 .f32) (x4 : Vec F S16x128 .f32) (j : Nat) (hj : j < 16) (o : Nat) (ho : o = 128 * j)
    (inbw : ∀ a, (![j, 0] : Fin 2 → Nat) a + S1x128.size a ≤ S16x128.size a)
    (inb : ∀ a, (![0, o] : Fin 2 → Nat) a + S1024x128.size a ≤ S1024x2048.size a) (z : S1024x128.Idx) :
    k0_pay26 x (View.ld x4 (Rect.unit (s := S16x128) ![j, 0] S1x128.size inbw)) z
      = cat x x4 ((Rect.unit (s := S1024x2048) ![0, o] S1024x128.size inb).emb z) := by
  have hz0 : (z 0).val < 1024 := (z 0).isLt
  have hz1 : (z 1).val < 128 := (z 1).isLt
  have e0 : (((Rect.unit (s := S1024x2048) ![0, o] S1024x128.size inb).emb z) 0).val = (z 0).val := by
    show 0 + 1 * (z 0).val = _; omega
  have e1 : (((Rect.unit (s := S1024x2048) ![0, o] S1024x128.size inb).emb z) 1).val = o + (z 1).val := by
    show o + 1 * (z 1).val = _; omega
  rw [ld_row x4 j hj inbw]
  unfold cat
  have hA : (⟨(((Rect.unit (s := S1024x2048) ![0, o] S1024x128.size inb).emb z) 1).val / 128 % 16, Nat.mod_lt _ (by decide)⟩ : Fin 16) = ⟨j, hj⟩ :=
    Fin.ext (by show _ / 128 % 16 = j; rw [e1]; omega)
  have hB : ix2 (⟨(((Rect.unit (s := S1024x2048) ![0, o] S1024x128.size inb).emb z) 0).val, (((Rect.unit (s := S1024x2048) ![0, o] S1024x128.size inb).emb z) 0).isLt⟩ : Fin 1024)
      (⟨(((Rect.unit (s := S1024x2048) ![0, o] S1024x128.size inb).emb z) 1).val % 128, Nat.mod_lt _ (by decide)⟩ : Fin 128) = z :=
    funext fun a => Fin.ext (by
      match a with
      | ⟨0, _⟩ => show (((Rect.unit (s := S1024x2048) ![0, o] S1024x128.size inb).emb z) 0).val = (z 0).val; exact e0
      | ⟨1, _⟩ => show (((Rect.unit (s := S1024x2048) ![0, o] S1024x128.size inb).emb z) 1).val % 128 = (z 1).val; rw [e1]; omega)
  rw [hA, hB]

/-- The sixteen slices, in the order the body stores them (last first), with every payload in the one form. -/
abbrev slices (x : Vec F S1024x128 .f32) (x4 : Vec F S16x128 .f32) : List (View.Piece (Elt F) S1024x2048 .bf16) :=
    [ (⟨Rect.unit (s := S1024x2048) ![0, 1920] S1024x128.size inb_S1024x2048_S1024x128_0_1920, k0_pay26 x (View.ld x4 (Rect.unit (s := S16x128) ![15, 0] S1x128.size inb_S16x128_S1x128_15_0))⟩ : View.Piece (Elt F) S1024x2048 .bf16),
      (⟨Rect.unit (s := S1024x2048) ![0, 1792] S1024x128.size inb_S1024x2048_S1024x128_0_1792, k0_pay26 x (View.ld x4 (Rect.unit (s := S16x128) ![14, 0] S1x128.size inb_S16x128_S1x128_14_0))⟩ : View.Piece (Elt F) S1024x2048 .bf16),
      (⟨Rect.unit (s := S1024x2048) ![0, 1664] S1024x128.size inb_S1024x2048_S1024x128_0_1664, k0_pay26 x (View.ld x4 (Rect.unit (s := S16x128) ![13, 0] S1x128.size inb_S16x128_S1x128_13_0))⟩ : View.Piece (Elt F) S1024x2048 .bf16),
      (⟨Rect.unit (s := S1024x2048) ![0, 1536] S1024x128.size inb_S1024x2048_S1024x128_0_1536, k0_pay26 x (View.ld x4 (Rect.unit (s := S16x128) ![12, 0] S1x128.size inb_S16x128_S1x128_12_0))⟩ : View.Piece (Elt F) S1024x2048 .bf16),
      (⟨Rect.unit (s := S1024x2048) ![0, 1408] S1024x128.size inb_S1024x2048_S1024x128_0_1408, k0_pay26 x (View.ld x4 (Rect.unit (s := S16x128) ![11, 0] S1x128.size inb_S16x128_S1x128_11_0))⟩ : View.Piece (Elt F) S1024x2048 .bf16),
      (⟨Rect.unit (s := S1024x2048) ![0, 1280] S1024x128.size inb_S1024x2048_S1024x128_0_1280, k0_pay26 x (View.ld x4 (Rect.unit (s := S16x128) ![10, 0] S1x128.size inb_S16x128_S1x128_10_0))⟩ : View.Piece (Elt F) S1024x2048 .bf16),
      (⟨Rect.unit (s := S1024x2048) ![0, 1152] S1024x128.size inb_S1024x2048_S1024x128_0_1152, k0_pay26 x (View.ld x4 (Rect.unit (s := S16x128) ![9, 0] S1x128.size inb_S16x128_S1x128_9_0))⟩ : View.Piece (Elt F) S1024x2048 .bf16),
      (⟨Rect.unit (s := S1024x2048) ![0, 1024] S1024x128.size inb_S1024x2048_S1024x128_0_1024, k0_pay26 x (View.ld x4 (Rect.unit (s := S16x128) ![8, 0] S1x128.size inb_S16x128_S1x128_8_0))⟩ : View.Piece (Elt F) S1024x2048 .bf16),
      (⟨Rect.unit (s := S1024x2048) ![0, 896] S1024x128.size inb_S1024x2048_S1024x128_0_896, k0_pay26 x (View.ld x4 (Rect.unit (s := S16x128) ![7, 0] S1x128.size inb_S16x128_S1x128_7_0))⟩ : View.Piece (Elt F) S1024x2048 .bf16),
      (⟨Rect.unit (s := S1024x2048) ![0, 768] S1024x128.size inb_S1024x2048_S1024x128_0_768, k0_pay26 x (View.ld x4 (Rect.unit (s := S16x128) ![6, 0] S1x128.size inb_S16x128_S1x128_6_0))⟩ : View.Piece (Elt F) S1024x2048 .bf16),
      (⟨Rect.unit (s := S1024x2048) ![0, 640] S1024x128.size inb_S1024x2048_S1024x128_0_640, k0_pay26 x (View.ld x4 (Rect.unit (s := S16x128) ![5, 0] S1x128.size inb_S16x128_S1x128_5_0))⟩ : View.Piece (Elt F) S1024x2048 .bf16),
      (⟨Rect.unit (s := S1024x2048) ![0, 512] S1024x128.size inb_S1024x2048_S1024x128_0_512, k0_pay26 x (View.ld x4 (Rect.unit (s := S16x128) ![4, 0] S1x128.size inb_S16x128_S1x128_4_0))⟩ : View.Piece (Elt F) S1024x2048 .bf16),
      (⟨Rect.unit (s := S1024x2048) ![0, 384] S1024x128.size inb_S1024x2048_S1024x128_0_384, k0_pay26 x (View.ld x4 (Rect.unit (s := S16x128) ![3, 0] S1x128.size inb_S16x128_S1x128_3_0))⟩ : View.Piece (Elt F) S1024x2048 .bf16),
      (⟨Rect.unit (s := S1024x2048) ![0, 256] S1024x128.size inb_S1024x2048_S1024x128_0_256, k0_pay26 x (View.ld x4 (Rect.unit (s := S16x128) ![2, 0] S1x128.size inb_S16x128_S1x128_2_0))⟩ : View.Piece (Elt F) S1024x2048 .bf16),
      (⟨Rect.unit (s := S1024x2048) ![0, 128] S1024x128.size inb_S1024x2048_S1024x128_0_128, k0_pay26 x (View.ld x4 (Rect.unit (s := S16x128) ![1, 0] S1x128.size inb_S16x128_S1x128_1_0))⟩ : View.Piece (Elt F) S1024x2048 .bf16),
      (⟨Rect.unit (s := S1024x2048) ![0, 0] S1024x128.size inb_S1024x2048_S1024x128_0_0, k0_pay26 x (View.ld x4 (Rect.unit (s := S16x128) ![0, 0] S1x128.size inb_S16x128_S1x128_0_0))⟩ : View.Piece (Elt F) S1024x2048 .bf16) ]

/-- The slices tile the scratch, -/
theorem slices_cover (x : Vec F S1024x128 .f32) (x4 : Vec F S16x128 .f32) (y : S1024x2048.Idx) : ∃ p ∈ slices x x4, y ∈ p.1.set :=
  View.cover_of_tiledL (slices x x4) S1024x128.size (by sl_kernel_rfl) y

/-- and each is the concatenated block on its rectangle: -/
theorem slices_agree (x : Vec F S1024x128 .f32) (x4 : Vec F S16x128 .f32) :
    ∀ p ∈ slices x x4, ∀ z : p.1.shape.Idx, p.2 z = cat x x4 (p.1.emb z) := by
  intro p hp
  simp only [slices, List.mem_cons, List.mem_nil_iff, or_false] at hp
  rcases hp with rfl | rfl | rfl | rfl | rfl | rfl | rfl | rfl | rfl | rfl | rfl | rfl | rfl | rfl | rfl | rfl
  all_goals (intro z; dsimp only at z ⊢; exact piece_cat x x4 _ (by decide) _ (by decide) _ _ z)

/-- so what they leave, read back, is the concatenated block. -/
theorem canon_slices (x : Vec F S1024x128 .f32) (x4 : Vec F S16x128 .f32) : View.canon (slices x x4) = cat x x4 :=
  funext fun y => View.canon_apply_of_pieces (cat x x4) (slices x x4) (slices_agree x x4) y (slices_cover x x4 y)

/-- A whole load after them reads it too. -/
theorem readCov_slices {κ : Kind} {sp : Space} (v : View sig κ sp S1024x2048 .bf16) (x : Vec F S1024x128 .f32) (x4 : Vec F S16x128 .f32) :
    v.readCov (slices x x4) (Rect.unit (s := S1024x2048) ![0, 0] S1024x2048.size inb_S1024x2048_S1024x2048_0_0).toLoadRect = cat x x4 := by
  rw [View.readCov_eq_canon_ld _ _ _ (slices_cover x x4), canon_slices, View.ld_unit_zero hz2]

/-! ## The cases' results -/

/-- A later tile of a row stores the masked product of the row scratch it finds with the column block's scratch. -/
theorem tileLater_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : ¬condFirst i)
    (x3 : Vec F S1024x128 .f32) (x4 : Vec F S16x128 .f32) (xs6 : Vec F S1024x2048 .bf16) :
    tileLater c i arg2 harg2 arg3 harg3 arg4 harg4 arg5 harg5 arg6 harg6 arg7 harg7 hc x3 x4 xs6 = k0_pay48 xs6 (cat x3 x4) := by
  unfold tileLater
  rw [View.read_writes_eq_canon _ _ _ (coverLaterTile c i arg2 harg2 arg3 harg3 arg4 harg4 arg5 harg5 arg6 harg6 arg7 harg7 hc x3 x4 xs6)]
  unfold runLater
  dsimp only
  sl_unfold_run_names
  rw [View.canon_unit_zero hz2]
  simp only [View.readAt_eq_ld, harg3.read_unread, harg4.read_unread, harg6.read_unread, View.ld_unit_zero (S := S1024x128) hz2,
    View.ld_unit_zero (S := S1024x2048) hz2, pay1_eq, pay2_eq, pay6_eq, pay9_eq, pay10_eq, pay14_eq, pay17_eq, pay18_eq, pay22_eq, pay25_eq, pay27_eq, pay28_eq, pay29_eq, pay33_eq, pay34_eq, pay35_eq, pay36_eq, pay40_eq, pay41_eq, pay42_eq, pay43_eq, pay47_eq, pay5_eq, pay13_eq, pay21_eq, pay8_eq, pay16_eq, pay24_eq, pay32_eq, pay39_eq, pay46_eq]
  rw [readCov_slices]

/-- The first tile of a row builds the row scratch from the row block, -/
theorem rowFirst_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) :
    rowFirst c i arg2 harg2 arg3 harg3 arg4 harg4 arg5 harg5 arg6 harg6 arg7 harg7 hc x2 x3 x4 = cat x2 x4 := by
  unfold rowFirst
  rw [View.read_writes_eq_canon _ _ _ (coverFirstRow c i arg2 harg2 arg3 harg3 arg4 harg4 arg5 harg5 arg6 harg6 arg7 harg7 hc x2 x3 x4)]
  unfold runFirst
  dsimp only
  sl_unfold_run_names
  simp only [View.readAt_eq_ld, harg2.read_unread, harg3.read_unread, harg4.read_unread, View.ld_unit_zero (S := S1024x128) hz2,
    View.ld_unit_zero (S := S1024x2048) hz2, pay1_eq, pay2_eq, pay6_eq, pay9_eq, pay10_eq, pay14_eq, pay17_eq, pay18_eq, pay22_eq, pay25_eq, pay27_eq, pay28_eq, pay29_eq, pay33_eq, pay34_eq, pay35_eq, pay36_eq, pay40_eq, pay41_eq, pay42_eq, pay43_eq, pay47_eq, pay5_eq, pay13_eq, pay21_eq, pay8_eq, pay16_eq, pay24_eq, pay32_eq, pay39_eq, pay46_eq]
  exact canon_slices x2 x4

/-- and stores the masked product of the two scratches it has just built. -/
theorem tileFirst_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S16x128 .f32) (harg4 : arg4.IsWhole) (arg5 : Memref sig .tc .vmem S1024x1024 .f32) (harg5 : arg5.IsWhole) (arg6 : Memref sig .tc .vmem S1024x2048 .bf16) (harg6 : arg6.IsWhole) (arg7 : Memref sig .tc .vmem S1024x2048 .bf16) (harg7 : arg7.IsWhole) (hc : condFirst i)
    (x2 : Vec F S1024x128 .f32) (x3 : Vec F S1024x128 .f32) (x4 : Vec F S16x128 .f32) :
    tileFirst c i arg2 harg2 arg3 harg3 arg4 harg4 arg5 harg5 arg6 harg6 arg7 harg7 hc x2 x3 x4 = k0_pay48 (cat x2 x4) (cat x3 x4) := by
  unfold tileFirst
  rw [View.read_writes_eq_canon _ _ _ (coverFirstTile c i arg2 harg2 arg3 harg3 arg4 harg4 arg5 harg5 arg6 harg6 arg7 harg7 hc x2 x3 x4)]
  unfold runFirst
  dsimp only
  sl_unfold_run_names
  rw [View.canon_unit_zero hz2]
  simp only [View.readAt_eq_ld, harg2.read_unread, harg3.read_unread, harg4.read_unread, View.ld_unit_zero (S := S1024x128) hz2,
    View.ld_unit_zero (S := S1024x2048) hz2, pay1_eq, pay2_eq, pay6_eq, pay9_eq, pay10_eq, pay14_eq, pay17_eq, pay18_eq, pay22_eq, pay25_eq, pay27_eq, pay28_eq, pay29_eq, pay33_eq, pay34_eq, pay35_eq, pay36_eq, pay40_eq, pay41_eq, pay42_eq, pay43_eq, pay47_eq, pay5_eq, pay13_eq, pay21_eq, pay8_eq, pay16_eq, pay24_eq, pay32_eq, pay39_eq, pay46_eq]
  rw [readCov_slices, readCov_slices]

end Cert.KernelIdeal.Tile

end
-- ==== Proof.IdealLaunch.lean ====
/-
  The launch of the tile pipeline and the program's frame.

  The row window and the column window read ONE array, so the launch hands the pipeline that array once, whole, and the
  proof deals it half to each window; the weights' array and the result's are held whole. The run then has every array
  of the pipeline at what the library computes from the proof data: an input its entry contents, the result its entry
  contents overwritten tile by tile.
-/
import proofs.«167289_j14869176779021_2_alg».proof.Proof.IdealData
import Idealize.ShloMosaic.Lib.Pipeline.Launch

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at its entry contents, are the pipeline's arrays at entry: the
    array the row and the column windows share is split in two halves. -/
theorem split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show Finset.univ.image (Pipeline.arrRef spec0) = {main_arg0, main_arg1, main_v0} from by decide,
    bigSep_insert (by decide), bigSep_insert (by decide), bigSep_singleton, bigSep_W0]
  rw [(arr_whole0 0).set_eq_univ, (arr_whole0 2).set_eq_univ, (arr_whole0 3).set_eq_univ]
  rw [show (dats m 0 c).share 0 = fullShare.left from rfl, show (dats m 0 c).share 1 = fullShare.right from rfl,
    show (dats m 0 c).share 2 = fullShare from rfl, show (dats m 0 c).share 3 = fullShare from rfl]
  show iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0)) ⊢ _
  iintro ⟨H0, H1, H2⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H2

/-- What the launch hands the region of scoped buffers is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After any point but the first the invariant gives the scoped buffers back, the row scratch's contents forgotten. -/
theorem Phi_out (c : Dev nD) (t : Fin (cfg0.N + 1)) (ht : t.val ≠ 0) :
    (dats m 0 c).Φ t ⊢ iprop((BI.emp : sProp 𝕄) ∗ Pipeline.scopedRest (Ix := Unit) (Name := ℕ) (U := UR sig nD τ) (Lvl := ℕ) (Val := Elt F) spec0 c) := by
  rw [show (dats m 0 c).Φ t = PhiS m c t.val (Nat.le_of_lt_succ t.isLt) from rfl, PhiS_pos m c _ _ ht, scoped_eq]
  iintro ⟨HR, HC⟩
  isplitr; · iempintro
  isplitl [HR]
  · iexists _; iexact HR
  iexact HC

theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) :=
  Phi_out m c _ (by rw [Fin.val_last]; have : cfg0.N = 16 := N_0; omega)

/-- The launch element: every staging cell's owner at round 0 and a token for every transfer the pipeline issues. -/
def u₀ : UR sig nD τ := initOf (Pipeline.cells cfgs cellOf_inj) (Pipeline.launchToks cfgs cellOf_inj)

/-- The run's post: every array of the pipeline holds what the library computes from the proof data. -/
def Post : PUnit × MemSt nD τ sig (Elt F) → Prop := fun r =>
  ∀ (c : Dev nD) (w : Fin cfg0.W), r.2.mem ((cfg0.spec w).arr.view.loc (c : Thread nD τ)) = (dats m 0 c).arrAt w cfg0.N

set_option backward.isDefEq.respectTransparency.types false in
/-- At the compiled mesh, for any values, from any memory with zero counters: every weakly fair execution of the program
    on the TensorCores terminates, nothing faulting, with every array of the pipeline at the computed contents. -/
theorem run_main : θ_run defs (onTc (τ := τ) (main (F := F))) (s₀ m ρ) (Post m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := .rfl)
    (V := V m) (hmain := hmain m Variants.none) (hsplit := split m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The frame: the two argument arrays are inputs of the pipeline, so they end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 2).trans (((dats m 0 c).arrAt_in 2 rfl _).trans (A_eq m c 2))⟩) (run_main m ρ)

end Cert.KernelIdeal.Tile

end
-- ==== Proof.IdealResult.lean ====
/-
  The result array as ONE function of the two argument arrays.

  Point t = 4·i + j of the grid reads rows i·1024.. of the first argument as its row block and rows j·1024.. as its
  column block, and writes tile (i, j) of the result. So entry (n, m) of the result is the masked, scaled product of
  the concatenated normalised block of rows n/1024·1024.. at row n%1024 with that of rows m/1024·1024.. at row m%1024.
-/
import proofs.«167289_j14869176779021_2_alg».proof.Proof.IdealScratch
import proofs.«167289_j14869176779021_2_alg».proof.Proof.IdealLaunch

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Rows `b·1024 ..` of a 4096-row array, as a block. -/
def rowBlk (A0 : S4096x128.Idx → Elt F .f32) (b : Nat) : Vec F S1024x128 .f32 := fun y =>
  A0 (ix2 (⟨(b * 1024 + (y 0).val) % 4096, Nat.mod_lt _ (by decide)⟩ : Fin 4096) (⟨(y 1).val, (y 1).isLt⟩ : Fin 128))

/-- The printed index maps over the grid: the row window follows t / 4, the column window t % 4, the weights stay, the
    result's tile is (t / 4, t % 4). -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = t.val % 4 :=
  (by decide +kernel : ∀ t : Fin grid0.N, _)

theorem iblk0_eq (c : Dev nD) (t : Fin cfg0.N) : iblk m c 0 t = rowBlk (V m c main_arg0) (t.val / 4) := by
  obtain ⟨e0, e1, -⟩ := idx_facts t
  have hN : t.val < 16 := lt_of_lt_of_eq t.isLt (show cfg0.N = 16 from N_0)
  funext y
  show V m c main_arg0 (((cfg0.win 0).blk t).view.emb y) = V m c main_arg0 _
  congr 1
  funext a; apply Fin.ext
  have hy0 : (y 0).val < 1024 := (y 0).isLt
  match a with
  | ⟨0, _⟩ => show win0_0.index t (0 : Fin 2) * 1024 + 1 * (y 0).val = (t.val / 4 * 1024 + (y 0).val) % 4096; omega
  | ⟨1, _⟩ => show win0_0.index t (1 : Fin 2) * 128 + 1 * (y 1).val = (y 1).val; omega

theorem iblk1_eq (c : Dev nD) (t : Fin cfg0.N) : iblk m c 1 t = rowBlk (V m c main_arg0) (t.val % 4) := by
  obtain ⟨-, -, e0, e1, -⟩ := idx_facts t
  have hN : t.val < 16 := lt_of_lt_of_eq t.isLt (show cfg0.N = 16 from N_0)
  funext y
  show V m c main_arg0 (((cfg0.win 1).blk t).view.emb y) = V m c main_arg0 _
  congr 1
  funext a; apply Fin.ext
  have hy0 : (y 0).val < 1024 := (y 0).isLt
  match a with
  | ⟨0, _⟩ => show win0_1.index t (0 : Fin 2) * 1024 + 1 * (y 0).val = (t.val % 4 * 1024 + (y 0).val) % 4096; omega
  | ⟨1, _⟩ => show win0_1.index t (1 : Fin 2) * 128 + 1 * (y 1).val = (y 1).val; omega

theorem iblk2_eq (c : Dev nD) (t : Fin cfg0.N) : iblk m c 2 t = V m c main_arg1 := by
  obtain ⟨-, -, -, -, e0, e1, -⟩ := idx_facts t
  funext y
  show V m c main_arg1 (((cfg0.win 2).blk t).view.emb y) = V m c main_arg1 y
  congr 1
  funext a; apply Fin.ext
  match a with
  | ⟨0, _⟩ => show win0_2.index t (0 : Fin 2) * 16 + 1 * (y 0).val = (y 0).val; omega
  | ⟨1, _⟩ => show win0_2.index t (1 : Fin 2) * 128 + 1 * (y 1).val = (y 1).val; omega

/-- After point `n`: the output buffer holds the product tile of row block n / 4 against column block n % 4, and the row
    scratch the concatenated normalised row block n / 4 — by induction on the point: a later tile's row scratch is the
    previous point's, whose row block is the same. -/
theorem outs_eq (c : Dev nD) : ∀ (n : ℕ) (h : n < cfg0.N),
    outsAt m c n h =
      (k0_pay48 (cat (rowBlk (V m c main_arg0) (n / 4)) (V m c main_arg1)) (cat (rowBlk (V m c main_arg0) (n % 4)) (V m c main_arg1)),
       cat (rowBlk (V m c main_arg0) (n / 4)) (V m c main_arg1))
  | 0, h => by
    rw [outsAt_first m c ⟨0, h⟩ rfl, tileFirst_eq, rowFirst_eq, iblk0_eq, iblk1_eq, iblk2_eq]
  | n + 1, h => by
    by_cases h0 : (n + 1) % 4 = 0
    · rw [outsAt_first m c ⟨n + 1, h⟩ h0, tileFirst_eq, rowFirst_eq, iblk0_eq, iblk1_eq, iblk2_eq]
    · rw [outsAt_later m c ⟨n + 1, h⟩ h0, tileLater_eq, iblk1_eq, iblk2_eq]
      have hprev := outs_eq c n (Nat.lt_of_succ_lt h)
      have hq : n / 4 = (n + 1) / 4 := by omega
      show (k0_pay48 (outsAt m c n _).2 _, (outsAt m c n _).2) = _
      rw [hprev, hq]

/-- The result array, entry by entry. -/
def result (A0 : S4096x128.Idx → Elt F .f32) (W : S16x128.Idx → Elt F .f32) : S4096x4096.Idx → Elt F .f32 := fun i =>
  k0_pay48 (cat (rowBlk A0 ((i 0).val / 1024)) W) (cat (rowBlk A0 ((i 1).val / 1024)) W)
    (ix2 (⟨(i 0).val % 1024, Nat.mod_lt _ (by decide)⟩ : Fin 1024) (⟨(i 1).val % 1024, Nat.mod_lt _ (by decide)⟩ : Fin 1024))

/-- What point `t` writes back is tile `t` of the result. -/
theorem flushed_eq (c : Dev nD) (t : Fin cfg0.N) :
    (dats m 0 c).flushed 3 t = ((cfg0.win 3).blk t).view.read (Elt F) (result (V m c main_arg0) (V m c main_arg1)) := by
  show (cfg0.win 3).cut (grid0.coords t) ((dats m 0 c).after 3 t) = _
  rw [after3, outs_eq]
  obtain ⟨-, -, -, -, -, -, e6, e7⟩ := idx_facts t
  have hN : t.val < 16 := lt_of_lt_of_eq t.isLt (show cfg0.N = 16 from N_0)
  funext j
  have hj0 : (j 0).val < 1024 := (j 0).isLt
  have hj1 : (j 1).val < 1024 := (j 1).isLt
  have h0 : ((((cfg0.win 3).blk t).view.emb j) 0).val = t.val / 4 * 1024 + (j 0).val := by
    show win0_3.index t (0 : Fin 2) * 1024 + 1 * (j 0).val = _; omega
  have h1 : ((((cfg0.win 3).blk t).view.emb j) 1).val = t.val % 4 * 1024 + (j 1).val := by
    show win0_3.index t (1 : Fin 2) * 1024 + 1 * (j 1).val = _; omega
  show k0_pay48 (cat (rowBlk (V m c main_arg0) (t.val / 4)) (V m c main_arg1)) (cat (rowBlk (V m c main_arg0) (t.val % 4)) (V m c main_arg1)) j
    = result (V m c main_arg0) (V m c main_arg1) (((cfg0.win 3).blk t).view.emb j)
  unfold result
  have a0 : ((((cfg0.win 3).blk t).view.emb j) 0).val / 1024 = t.val / 4 := by rw [h0]; omega
  have a1 : ((((cfg0.win 3).blk t).view.emb j) 1).val / 1024 = t.val % 4 := by rw [h1]; omega
  have b : ix2 (⟨((((cfg0.win 3).blk t).view.emb j) 0).val % 1024, Nat.mod_lt _ (by decide)⟩ : Fin 1024)
      (⟨((((cfg0.win 3).blk t).view.emb j) 1).val % 1024, Nat.mod_lt _ (by decide)⟩ : Fin 1024) = j :=
    funext fun a => Fin.ext (by
      match a with
      | ⟨0, _⟩ => show ((((cfg0.win 3).blk t).view.emb j) 0).val % 1024 = (j 0).val; rw [h0]; omega
      | ⟨1, _⟩ => show ((((cfg0.win 3).blk t).view.emb j) 1).val % 1024 = (j 1).val; rw [h1]; omega)
  rw [a0, a1, b]

/-- An index of the result is in point `t`'s tile iff each coordinate is in the tile's range. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every tile is some point's. -/
theorem idx_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- The sixteen tiles cover the result, so after the run it is `result` of the arguments. -/
theorem final (c : Dev nD) : (dats m 0 c).arrAt 3 cfg0.N = result (V m c main_arg0) (V m c main_arg1) :=
  (dats m 0 c).arrAt_eq_of_cover 3 (result (V m c main_arg0) (V m c main_arg1)) (fun t _ => flushed_eq m c t) fun i => by
    have hi0 : (i 0).val < 4096 := (i 0).isLt
    have hi1 : (i 1).val < 4096 := (i 1).isLt
    obtain ⟨t, ht⟩ := idx_onto ⟨(i 0).val / 1024, by omega⟩ ⟨(i 1).val / 1024, by omega⟩
    have q0 : win0_3.index t (0 : Fin 2) = (i 0).val / 1024 := congrFun ht 0
    have q1 : win0_3.index t (1 : Fin 2) = (i 1).val / 1024 := congrFun ht 1
    refine ⟨t, flush0_3 t, ?_⟩
    rw [mem_blk]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-- The run, read: the result array ends at `result` of the argument arrays, which end as they began. -/
theorem run_value : θ_run defs (onTc (τ := τ) (main (F := F))) ⟨m, fun _ => 0, ρ⟩ (fun r => ∀ c : Dev nD,
      r.2.mem ((c.tc : Thread nD τ).loc main_v0) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 3).trans (final m c),
     (h c 0).trans (((dats m 0 c).arrAt_in 0 rfl _).trans (A_eq m c 0)),
     (h c 2).trans (((dats m 0 c).arrAt_in 2 rfl _).trans (A_eq m c 2))⟩) (run_main m ρ)

end Cert.KernelIdeal.Tile

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.JoinLaws.lean ====
/-
  The laws that join the two programs' results on the extended reals.

  Dividing by 16 is multiplying by 2⁻⁴ (16 is a nonzero real), for every extended real; a comparison bit widened and read
  as a signed integer is the bit read as an unsigned one (0 or 1 either way); and a sum over the 2048 concatenated
  coordinates k is the double sum over the 16 copies and the 128 features, k = 128·p + d. None of them needs finiteness.
-/
import Idealize.ShloMosaic.PureOps.Ideal
import proofs.«167289_j14869176779021_2_alg».proof.Proof.LibTileSum

noncomputable section

namespace Cert.Join

open Idealize.ShloMosaic

/-- The f32 word of 16.0 denotes the real 16, -/
theorem ofBits_16 : Ideal.ofBits .f32 0x41800000#32 = ((16 : ℝ) : EReal) := by
  simp [Ideal.ofBits, Ideal.ieee, -EReal.coe_mul]; norm_num

/-- and that of 0.0625 the real 1/16, exactly. -/
theorem ofBits_sixteenth : Ideal.ofBits .f32 0x3D800000#32 = ((1 / 16 : ℝ) : EReal) := by
  simp [Ideal.ofBits, Ideal.ieee, -EReal.coe_mul]; norm_num

/-- The f32 word of +0.0 denotes 0. -/
theorem ofBits_zero : Ideal.ofBits .f32 0x00000000#32 = 0 := by
  simp [Ideal.ofBits, Ideal.ieee]

/-- So the quotient by 16.0 is the product with 0.0625, on every extended real. -/
theorem div16 (x : EReal) : Ideal.div x (Ideal.ofBits .f32 0x41800000#32) = x * Ideal.ofBits .f32 0x3D800000#32 := by
  rw [ofBits_16, ofBits_sixteenth, Ideal.div_coe (by norm_num : (16 : ℝ) ≠ 0)]

/-- One bit, widened to 32 bits and read signed, is the bit read unsigned. -/
theorem bit_signed_eq_unsigned (b : BitVec 1) :
    FloatOps.sitofp (F := Ideal) .f32 (b.setWidth 32) = FloatOps.uitofp (F := Ideal) .f32 b := by
  have h : (b.setWidth 32).toInt = (b.toNat : ℤ) := by revert b; decide
  show (((b.setWidth 32).toInt : ℝ) : EReal) = ((b.toNat : ℝ) : EReal)
  rw [h, Int.cast_natCast]

/-- The sum over the concatenated coordinate is the double sum over copies and features. -/
theorem sum_cat {M : Type*} [AddCommMonoid M] (g : Fin 16 → Fin 128 → M) :
    ∑ k : Fin 2048, g ⟨k.val / 128 % 16, Nat.mod_lt _ (by decide)⟩ ⟨k.val % 128, Nat.mod_lt _ (by decide)⟩
      = ∑ p : Fin 16, ∑ d : Fin 128, g p d := by
  rw [TileSum.sum_axis (A := 16) (a := 128) (by norm_num : 16 * 128 = 2048)]
  refine Finset.sum_congr rfl fun p _ => Finset.sum_congr rfl fun d _ => ?_
  have hp := p.isLt
  have hd := d.isLt
  have e1 : (⟨(TileSum.idx (by norm_num : 16 * 128 = 2048) p d).val / 128 % 16, Nat.mod_lt _ (by decide)⟩ : Fin 16) = p :=
    Fin.ext (by show (p.val * 128 + d.val) / 128 % 16 = p.val; omega)
  have e2 : (⟨(TileSum.idx (by norm_num : 16 * 128 = 2048) p d).val % 128, Nat.mod_lt _ (by decide)⟩ : Fin 128) = d :=
    Fin.ext (by show (p.val * 128 + d.val) % 128 = d.val; omega)
  rw [e1, e2]

end Cert.Join

end
-- ==== Proof.EntrySpec.lean ====
/-
  The common form of both programs' result entries on the extended reals.

  Copy p of row n of the first argument, normalised: feature d weighted by weight row p, over the norm of the weighted
  row floored at a small constant. Entry (n, m) of the result is the sum over copies and features of products of such
  entries of rows n and m, scaled by 2⁻⁴, times the bit "it exceeds the threshold".
-/
import Idealize.ShloMosaic.PureOps.Ideal
import Idealize.ShloMosaic.Lib.ValueIdx

noncomputable section

namespace Cert.Entry

open Idealize.ShloMosaic Idealize.ShloMosaic.ValueIdx

/-- The floor of a norm, the scale 2⁻⁴ and the mask's threshold, as the f32 words both programs spell. -/
abbrev floorI : EReal := Ideal.ofBits .f32 0x2B8CBCCC#32
abbrev scaleI : EReal := Ideal.ofBits .f32 0x3D800000#32
abbrev threshI : EReal := Ideal.ofBits .f32 0x3DCCCCCD#32

/-- A value times the bit "it exceeds the threshold", the bit widened to 32 bits and read signed. -/
def maskedK (a : EReal) : EReal :=
  a * FloatOps.sitofp (F := Ideal) .f32 ((FloatOps.cmpf (F := Ideal) (φ := .f32) .ogt a threshI).setWidth 32)

/-- Copy `p` of row `n`, normalised, at feature `d`. -/
def normed (A0 : (⟨2, ![4096, 128]⟩ : Shape).Idx → EReal) (W : (⟨2, ![16, 128]⟩ : Shape).Idx → EReal) (n : Fin 4096) (p : Fin 16) (d : Fin 128) : EReal :=
  Ideal.div (A0 (ix2 n d) * W (ix2 p d))
    (max (Ideal.sqrt (∑ d' : Fin 128, (A0 (ix2 n d') * W (ix2 p d')) * (A0 (ix2 n d') * W (ix2 p d')))) floorI)

/-- Entry (n, m) of the result. -/
def entry (A0 : (⟨2, ![4096, 128]⟩ : Shape).Idx → EReal) (W : (⟨2, ![16, 128]⟩ : Shape).Idx → EReal) (n m' : Fin 4096) : EReal :=
  maskedK ((∑ p : Fin 16, ∑ d : Fin 128, normed A0 W n p d * normed A0 W m' p d) * scaleI)

end Cert.Entry

end
-- ==== Proof.IdealEntries.lean ====
/-
  The idealized kernel's result, entry by entry, on the extended reals.

  A slice entry is the weighted feature over the floored norm of its row of weighted features; an entry of the product
  tile is the sum over the 2048 concatenated coordinates of products of two such entries, scaled by 2⁻⁴ and masked.
-/
import proofs.«167289_j14869176779021_2_alg».proof.Proof.IdealResult
import proofs.«167289_j14869176779021_2_alg».proof.Proof.LibKeepdims
import proofs.«167289_j14869176779021_2_alg».proof.Proof.LibPlainMatmul
import proofs.«167289_j14869176779021_2_alg».proof.Proof.JoinLaws
import proofs.«167289_j14869176779021_2_alg».proof.Proof.EntrySpec
import Idealize.ShloMosaic.Lib.ValueLayout
import Idealize.ShloMosaic.PureOps.Ideal.Laws

set_option maxRecDepth 16384

noncomputable section

namespace Cert.KernelIdeal.Tile

open Cert.KernelIdeal Cert.KernelIdeal.Gen
open Idealize.ShloMosaic Idealize.ShloMosaic.TcCoe Idealize.SL.Sem
open Idealize.ShloMosaic.ValueIdx Cert.LibKeepdims Cert.Entry

/-- A weight row spread over the block's rows reads, at any row, the weight row. -/
theorem wspread (w : Vec Ideal S1x128 .f32) (h1 : S1x128.ShapeCasts S128) (h2 : S128.ShapeCasts S1x128) (h3 : S1x128.Broadcasts S1024x128)
    (r : Fin 1024) (d : Fin 128) :
    broadcastTo S1024x128 (shapeCast S1x128 (shapeCast S128 w h1) h2) h3 (ix2 r d) = w (ix2 (0 : Fin 1) d) := by
  rw [broadcastTo_1b_ab_apply, shapeCast_a_1a_apply, shapeCast_1a_a_apply]

/-- One slice entry. -/
theorem pay26_apply (x : Vec Ideal S1024x128 .f32) (w : Vec Ideal S1x128 .f32) (r : Fin 1024) (d : Fin 128) :
    k0_pay26 (F := Ideal) x w (ix2 r d)
      = Ideal.div (x (ix2 r d) * w (ix2 (0 : Fin 1) d))
          (max (Ideal.sqrt (∑ d' : Fin 128, (x (ix2 r d') * w (ix2 (0 : Fin 1) d')) * (x (ix2 r d') * w (ix2 (0 : Fin 1) d')))) floorI) := by
  unfold k0_pay26
  simp only [Idealize.ShloMosaic.shapeCast_self]
  rw [truncf_apply, divf_apply, mulf_apply, wspread, broadcastTo_a1_ab_apply _ _ r d (0 : Fin 1), maximumf_apply, broadcast_apply]
  show Ideal.div _ (max (Ideal.sqrt (shapeCast S1024x1 _ _ (ix2 r (0 : Fin 1)))) floorI) = _
  rw [shapeCast_a_a1_apply _ _ r (0 : Fin 1)]
  refine congrArg (fun s => Ideal.div (x (ix2 r d) * w (ix2 (0 : Fin 1) d)) (max (Ideal.sqrt s) floorI)) ?_
  refine (multiReduction_add_lastAxis_apply _ _ _ _ _ r).trans ?_
  refine Finset.sum_congr rfl fun d' _ => ?_
  rw [mulf_apply, mulf_apply, wspread]

/-- One entry of the product tile. -/
theorem pay48_apply (X Y : FVec Ideal S1024x2048 .bf16) (p q : Fin 1024) :
    k0_pay48 (F := Ideal) X Y (ix2 p q) = maskedK ((∑ k : Fin 2048, X (ix2 p k) * Y (ix2 q k)) * scaleI) := by
  unfold k0_pay48
  have hm : matmul (F := Ideal) dot_S1024x2048_S2048x1024_S1024x1024_1_0_0_1_n_n none X (transpose S2048x1024 [1, 0] Y transposes_S1024x2048_p1_0_S2048x1024)
        (constant S1024x1024 .f32 0x00000000#32) (ix2 p q) = ∑ k : Fin 2048, X (ix2 p k) * Y (ix2 q k) := by
    refine (matmul_plain_zero_apply 1024 2048 1024 none X (transpose S2048x1024 [1, 0] Y transposes_S1024x2048_p1_0_S2048x1024) p q).trans ?_
    exact Finset.sum_congr rfl fun k _ => by rw [transpose_ix2_apply]
  rw [mulf_apply, sitofp_apply, extui_apply, cmpf_apply, mulf_apply, broadcast_apply, broadcast_apply, hm]
  rfl

/-- An entry of the concatenated normalised block of rows b·1024.. is the normalised copy k / 128 at feature k % 128. -/
theorem cat_apply (A0 : S4096x128.Idx → EReal) (W : S16x128.Idx → EReal) (b : Nat) (r : Fin 1024) (k : Fin 2048)
    (n : Fin 4096) (hn : n.val = b * 1024 + r.val) :
    cat (F := Ideal) (rowBlk A0 b) W (ix2 r k)
      = normed A0 W n ⟨k.val / 128 % 16, Nat.mod_lt _ (by decide)⟩ ⟨k.val % 128, Nat.mod_lt _ (by decide)⟩ := by
  have hrow : ∀ d : Fin 128, rowBlk (F := Ideal) A0 b (ix2 (⟨((ix2 r k : S1024x2048.Idx) 0).val, ((ix2 r k : S1024x2048.Idx) 0).isLt⟩ : Fin 1024) d) = A0 (ix2 n d) := fun d => by
    have := n.isLt
    have e : (⟨(b * 1024 + r.val) % 4096, Nat.mod_lt _ (by decide)⟩ : Fin 4096) = n := Fin.ext (by show (b * 1024 + r.val) % 4096 = n.val; omega)
    show A0 (ix2 (⟨(b * 1024 + r.val) % 4096, Nat.mod_lt _ (by decide)⟩ : Fin 4096) d) = A0 (ix2 n d)
    rw [e]
  have hw : ∀ d : Fin 128, wrow (F := Ideal) W (⟨((ix2 r k : S1024x2048.Idx) 1).val / 128 % 16, Nat.mod_lt _ (by decide)⟩ : Fin 16) (ix2 (0 : Fin 1) d)
      = W (ix2 (⟨k.val / 128 % 16, Nat.mod_lt _ (by decide)⟩ : Fin 16) d) := fun d => rfl
  unfold cat
  rw [pay26_apply]
  unfold normed
  simp only [hrow, hw]

/-- An entry of the result: the masked, scaled sum over copies and features of products of normalised entries. -/
theorem result_apply (A0 : S4096x128.Idx → EReal) (W : S16x128.Idx → EReal) (n m' : Fin 4096) :
    result (F := Ideal) A0 W (ix2 n m')
      = entry A0 W n m' := by
  unfold result entry
  rw [pay48_apply]
  have hn := n.isLt
  have hm := m'.isLt
  have e : ∀ k : Fin 2048,
      cat (F := Ideal) (rowBlk A0 (((ix2 n m' : S4096x4096.Idx) 0).val / 1024)) W (ix2 (⟨((ix2 n m' : S4096x4096.Idx) 0).val % 1024, Nat.mod_lt _ (by decide)⟩ : Fin 1024) k)
        * cat (F := Ideal) (rowBlk A0 (((ix2 n m' : S4096x4096.Idx) 1).val / 1024)) W (ix2 (⟨((ix2 n m' : S4096x4096.Idx) 1).val % 1024, Nat.mod_lt _ (by decide)⟩ : Fin 1024) k)
      = (fun (p : Fin 16) (d : Fin 128) => normed A0 W n p d * normed A0 W m' p d) ⟨k.val / 128 % 16, Nat.mod_lt _ (by decide)⟩ ⟨k.val % 128, Nat.mod_lt _ (by decide)⟩ := fun k => by
    rw [cat_apply A0 W _ _ k n (by show n.val = n.val / 1024 * 1024 + n.val % 1024; omega),
      cat_apply A0 W _ _ k m' (by show m'.val = m'.val / 1024 * 1024 + m'.val % 1024; omega)]
  rw [Finset.sum_congr rfl fun k _ => e k]
  exact congrArg (fun s => maskedK (s * scaleI)) (Cert.Join.sum_cat (fun p d => normed A0 W n p d * normed A0 W m' p d))

end Cert.KernelIdeal.Tile

end
-- ==== Proof.RefEntries.lean ====
/-
  The reference's result, entry by entry, on the extended reals — read one operation at a time.

  The reference weights every row by every weight row (a [16, 4096, 128] array), normalises along the features, takes for
  each copy the Gram matrix of the normalised rows, sums the sixteen Gram matrices and divides by 16, then masks. Entry
  (n, m) is therefore the common form: its inner sum over features and outer sum over copies are that form's double sum,
  each sum's zero start drops, the quotient by 16 is the product with 2⁻⁴, and the unsigned reading of the mask's bit
  is the signed reading of the widened bit.
-/
import proofs.«167289_j14869176779021_2_alg».proof.Proof.Gen.ReferenceIdeal.Read
import proofs.«167289_j14869176779021_2_alg».proof.Proof.EntrySpec
import proofs.«167289_j14869176779021_2_alg».proof.Proof.JoinLaws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx Cert.Entry

variable (x0 : (⟨S4096x128, .f32⟩ : BufTy).Contents (Elt Ideal)) (x1 : (⟨S16x128, .f32⟩ : BufTy).Contents (Elt Ideal))

/-- A weighted feature: row `n`'s feature `d` times weight row `p`'s. -/
theorem weighted (p : Fin 16) (n : Fin 4096) (d : Fin 128) :
    val_main_v4 (F := Ideal) x0 x1 (ix3 p n d) = x0 (ix2 n d) * x1 (ix2 p d) := by
  rw [val_main_v4_apply, val_main_v2_apply, val_main_v0_apply, val_main_v3_apply, val_main_v1_apply]
  have e0 : idx_main_v0 (idx_main_v2 (ix3 p n d)) = ix2 n d := funext fun a => by match a with | ⟨0, _⟩ => rfl | ⟨1, _⟩ => rfl
  have e1 : idx_main_v1 (idx_main_v3 (ix3 p n d)) = ix2 p d := funext fun a => by match a with | ⟨0, _⟩ => rfl | ⟨1, _⟩ => rfl
  rw [e0, e1]; rfl

/-- The floored norm of copy `p` of row `n`. -/
theorem floored (p : Fin 16) (n : Fin 4096) :
    val_main_v7 (F := Ideal) x0 x1 (ix3 p n (0 : Fin 1))
      = max (Ideal.sqrt (∑ d : Fin 128, (x0 (ix2 n d) * x1 (ix2 p d)) * (x0 (ix2 n d) * x1 (ix2 p d)))) floorI := by
  rw [val_main_v7_apply, val_main_v5_apply, val_main_call0_v2_apply, val_main_call0_v1_apply, val_main_v6_apply, val_main_cst_apply,
    val_main_call0_cst_apply]
  have es : ∀ k : Fin 128, val_main_call0_v0 (F := Ideal) x0 x1 (idx_main_call0_v1 (idx_main_call0_v2 (ix3 p n (0 : Fin 1))) k)
      = (x0 (ix2 n k) * x1 (ix2 p k)) * (x0 (ix2 n k) * x1 (ix2 p k)) := fun k => by
    have e : idx_main_call0_v1 (idx_main_call0_v2 (ix3 p n (0 : Fin 1))) k = ix3 p n k := funext fun a => by match a with | ⟨0, _⟩ => rfl | ⟨1, _⟩ => rfl | ⟨2, _⟩ => rfl
    rw [e, val_main_call0_v0_apply, weighted]; rfl
  simp only [es]
  show max (Ideal.sqrt (Ideal.ofBits .f32 0x00000000#32 + _)) floorI = _
  rw [Cert.Join.ofBits_zero, zero_add]

/-- A normalised entry is the common form's. -/
theorem normalised (p : Fin 16) (n : Fin 4096) (d : Fin 128) :
    val_main_v9 (F := Ideal) x0 x1 (ix3 p n d) = normed x0 x1 n p d := by
  rw [val_main_v9_apply, val_main_v8_apply, weighted]
  have e : idx_main_v8 (ix3 p n d) = ix3 p n (0 : Fin 1) := funext fun a => by match a with | ⟨0, _⟩ => rfl | ⟨1, _⟩ => rfl | ⟨2, _⟩ => rfl
  rw [e, floored]; rfl

/-- Copy `p`'s Gram entry of rows `n` and `m`. -/
theorem gram (p : Fin 16) (n m' : Fin 4096) :
    val_main_v10 (F := Ideal) x0 x1 (ix3 p n m') = ∑ d : Fin 128, normed x0 x1 n p d * normed x0 x1 m' p d := by
  rw [val_main_v10_apply]
  refine Finset.sum_congr rfl fun k _ => ?_
  have el : lidx_main_v10 (ix3 p n m') k = ix3 p n k := funext fun a => by match a with | ⟨0, _⟩ => rfl | ⟨1, _⟩ => rfl | ⟨2, _⟩ => rfl
  have er : ridx_main_v10 (ix3 p n m') k = ix3 p m' k := funext fun a => by match a with | ⟨0, _⟩ => rfl | ⟨1, _⟩ => rfl | ⟨2, _⟩ => rfl
  rw [el, er, normalised, normalised]

/-- The mean over copies: the quotient by 16 of the sum from zero is the double sum scaled by 2⁻⁴. -/
theorem mean (n m' : Fin 4096) :
    val_main_v13 (F := Ideal) x0 x1 (ix2 n m') = (∑ p : Fin 16, ∑ d : Fin 128, normed x0 x1 n p d * normed x0 x1 m' p d) * scaleI := by
  rw [val_main_v13_apply, val_main_v11_apply, val_main_v12_apply, val_main_cst_1_apply, val_main_cst_0_apply]
  have e : ∀ k : Fin 16, val_main_v10 (F := Ideal) x0 x1 (idx_main_v11 (ix2 n m') k) = ∑ d : Fin 128, normed x0 x1 n k d * normed x0 x1 m' k d := fun k => by
    have e' : idx_main_v11 (ix2 n m') k = ix3 k n m' := funext fun a => by match a with | ⟨0, _⟩ => rfl | ⟨1, _⟩ => rfl | ⟨2, _⟩ => rfl
    rw [e', gram]
  simp only [e]
  show Ideal.div (Ideal.ofBits .f32 0x00000000#32 + _) (Ideal.ofBits .f32 0x41800000#32) = _
  rw [Cert.Join.ofBits_zero, zero_add, Cert.Join.div16]

/-- The reference's entry (n, m) is the common form. -/
theorem ref_entry (n m' : Fin 4096) : val_main_v17 (F := Ideal) x0 x1 (ix2 n m') = entry x0 x1 n m' := by
  rw [val_main_v17_apply, val_main_v16_apply, val_main_v15_apply, val_main_v14_apply, val_main_cst_2_apply, mean]
  unfold entry maskedK
  rw [Cert.Join.bit_signed_eq_unsigned]
  rfl

end Cert.ReferenceIdeal.RefValue

end
-- ==== Proof.lean ====
/-
  Equivalence of a fused tile kernel for a thresholded multi-perspective cosine-similarity matrix with its reference, on
  the extended reals.

  Both programs take a [4096, 128] array of rows and a [16, 128] array of weights. Each of the 16 weight rows scales the
  features of every row; each scaled row is divided by its norm floored at a small constant; entry (n, m) of the result is
  the mean over the 16 copies of the inner product of the normalised copies of rows n and m, kept where it exceeds a
  threshold and zero elsewhere.

  The kernel works on a 4 x 4 grid of 1024 x 1024 tiles. It concatenates a row block's 16 normalised copies into one
  [1024, 2048] scratch (column 128·p + d holds copy p at feature d), does the same for the column block, and multiplies
  the two scratches — one sum over 2048 coordinates in place of 16 sums over 128 — then scales by 2⁻⁴ and masks. The row
  scratch is built at the first tile of each row of tiles and reused by the three tiles after it.

  The proof runs the tile body symbolically in its two cases (first tile of a row; a later tile), carries the row scratch
  in the pipeline's invariant from point to point, reads every scratch slice and the product tile at an index, and shows
  the sixteen tiles cover the result. The reference is read one operation at a time. The two entries meet in one form:
  a sum over 2048 coordinates is the double sum over copies and features; dividing by 16 is multiplying by 2⁻⁴ for every
  extended real; the mask's bit reads the same signed after widening as unsigned. No step needs the inputs finite.
  The word-level kernel's frame is the same symbolic run at the other instance; the idealization changed no operation.
-/
import proofs.«167289_j14869176779021_2_alg».proof.Defs
import proofs.«167289_j14869176779021_2_alg».proof.Proof.Gen.Kernel
import proofs.«167289_j14869176779021_2_alg».proof.Proof.Gen.KernelIdeal
import proofs.«167289_j14869176779021_2_alg».proof.Proof.Gen.ReferenceIdeal
import proofs.«167289_j14869176779021_2_alg».proof.Proof.Gen.ReferenceIdeal.Run
import proofs.«167289_j14869176779021_2_alg».proof.Proof.Gen.ReferenceIdeal.Read
import proofs.«167289_j14869176779021_2_alg».proof.Proof.Gen.Pre_finite_inputs
import proofs.«167289_j14869176779021_2_alg».proof.Proof.BitsLaunch
import proofs.«167289_j14869176779021_2_alg».proof.Proof.IdealEntries
import proofs.«167289_j14869176779021_2_alg».proof.Proof.RefEntries
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its two argument arrays as they were. -/
theorem frame_k : Cert.frame_Kernel := fun m ρ _ => Cert.Kernel.Tile.frame (F := Bits) m ρ

/-- So does the idealized kernel. -/
theorem frame_ki : Cert.frame_KernelIdeal := fun m ρ _ => Cert.KernelIdeal.Tile.frame (F := Ideal) m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the idealized kernel and the reference both run and end with the same
    result: entry by entry both are the common form. -/
theorem algebraic : Cert.algebraic_KernelIdeal_ReferenceIdeal := by
  intro m ρ m' ρ' _ hagree
  refine ⟨fun c => Cert.KernelIdeal.Tile.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tile.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  funext i
  obtain ⟨n, k, rfl⟩ : ∃ (n k : Fin 4096), i = ix2 n k := ⟨i 0, i 1, eq_ix2 i⟩
  exact (Cert.ReferenceIdeal.RefValue.ref_entry _ _ n k).trans (Cert.KernelIdeal.Tile.result_apply _ _ n k).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
